-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x768x768 : Shape := ⟨4, ![4, 1, 768, 768]⟩
abbrev S_ : Shape := ⟨0, ![]⟩

class Facts : Prop where
  bcast_S_S4x1x768x768 : S_.BroadcastsInDim S4x1x768x768 (![] : Fin 0 → Fin S4x1x768x768.rank)
  reducesTo_S4x1x768x768_S_d0_1_2_3 : S4x1x768x768.ReducesTo [0, 1, 2, 3] S_
  h_S_ : 0 < S_.numel

variable [Facts]

def fn {F : FTy → Type} [FloatOps F] (main_arg0 : FVec F S4x1x768x768 .f32) (main_arg1 : FVec F S4x1x768x768 .f32) : IVec S_ 1 :=
  let main_v0 : FVec F S4x1x768x768 .f32 := Host.absf main_arg0
  let main_cst : FVec F S_ .f32 := constant S_ .f32 0x7F800000#32
  let main_v1 : FVec F S4x1x768x768 .f32 := broadcastInDim S4x1x768x768 ![] bcast_S_S4x1x768x768 main_cst
  let main_v2 : IVec S4x1x768x768 1 := cmpf .olt main_v0 main_v1
  let main_c : IVec S_ 1 := constantI S_ 1 1#1
  let main_v3 : IVec S_ 1 := (fun x v => Host.reduce IntOp.andi x v reducesTo_S4x1x768x768_S_d0_1_2_3 h_S_) main_v2 main_c
  let main_v4 : FVec F S4x1x768x768 .f32 := Host.absf main_arg1
  let main_cst_0 : FVec F S_ .f32 := constant S_ .f32 0x7F800000#32
  let main_v5 : FVec F S4x1x768x768 .f32 := broadcastInDim S4x1x768x768 ![] bcast_S_S4x1x768x768 main_cst_0
  let main_v6 : IVec S4x1x768x768 1 := cmpf .olt main_v4 main_v5
  let main_c_1 : IVec S_ 1 := constantI S_ 1 1#1
  let main_v7 : IVec S_ 1 := (fun x v => Host.reduce IntOp.andi x v reducesTo_S4x1x768x768_S_d0_1_2_3 h_S_) main_v6 main_c_1
  let main_v8 : IVec S_ 1 := andi main_v3 main_v7
  main_v8
-- ==== Kernel.lean ====
abbrev S4x1x768x768 : Shape := ⟨4, ![4, 1, 768, 768]⟩
abbrev S1x1x768x768 : Shape := ⟨4, ![1, 1, 768, 768]⟩
abbrev S772x772 : Shape := ⟨2, ![772, 772]⟩
abbrev S768x768 : Shape := ⟨2, ![768, 768]⟩

abbrev nBuf : Space → Nat
  | .hbm => 4
  | .vmem => 9
  | .smem => 0
  | _ => 0

abbrev bufTy : (tb : Table) → Fin (tcTables nBuf tb) → BufTy
  | .hbm, ⟨0, _⟩ => ⟨S4x1x768x768, .f32⟩
  | .hbm, ⟨1, _⟩ => ⟨S4x1x768x768, .f32⟩
  | .hbm, ⟨2, _⟩ => ⟨S4x1x768x768, .f32⟩
  | .hbm, ⟨3, _⟩ => ⟨S4x1x768x768, .f32⟩
  | .local _ .vmem, ⟨0, _⟩ => ⟨S1x1x768x768, .f32⟩
  | .local _ .vmem, ⟨1, _⟩ => ⟨S1x1x768x768, .f32⟩
  | .local _ .vmem, ⟨2, _⟩ => ⟨S1x1x768x768, .f32⟩
  | .local _ .vmem, ⟨3, _⟩ => ⟨S1x1x768x768, .f32⟩
  | .local _ .vmem, ⟨4, _⟩ => ⟨S1x1x768x768, .f32⟩
  | .local _ .vmem, ⟨5, _⟩ => ⟨S1x1x768x768, .f32⟩
  | .local _ .vmem, ⟨6, _⟩ => ⟨S1x1x768x768, .f32⟩
  | .local _ .vmem, ⟨7, _⟩ => ⟨S1x1x768x768, .f32⟩
  | .local _ .vmem, ⟨8, _⟩ => ⟨S772x772, .f32⟩
  | _, _ => ⟨S4x1x768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x768x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x768x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1x768x768_S1x1x768x768_0_0_0_0 : ∀ a, (![0, 0, 0, 0] : Fin 4 → Nat) a + S1x1x768x768.size a ≤ S1x1x768x768.size a
  h_S1x1x768x768 : 0 < S1x1x768x768.numel
  shapeCasts_S1x1x768x768_S768x768 : S1x1x768x768.ShapeCasts S768x768
  inb_S772x772_S772x772_0_0 : ∀ a, (![0, 0] : Fin 2 → Nat) a + S772x772.size a ≤ S772x772.size a
  h_S772x772 : 0 < S772x772.numel
  shapeCasts_S772x772_S772x772 : S772x772.ShapeCasts S772x772
  inb_S772x772_S768x768_2_2 : ∀ a, (![2, 2] : Fin 2 → Nat) a + S768x768.size a ≤ S772x772.size a
  h_S768x768 : 0 < S768x768.numel
  shapeCasts_S768x768_S768x768 : S768x768.ShapeCasts S768x768
  inb_S772x772_S768x768_0_0 : ∀ a, (![0, 0] : Fin 2 → Nat) a + S768x768.size a ≤ S772x772.size a
  inb_S772x772_S768x768_0_1 : ∀ a, (![0, 1] : Fin 2 → Nat) a + S768x768.size a ≤ S772x772.size a
  inb_S772x772_S768x768_0_2 : ∀ a, (![0, 2] : Fin 2 → Nat) a + S768x768.size a ≤ S772x772.size a
  inb_S772x772_S768x768_0_3 : ∀ a, (![0, 3] : Fin 2 → Nat) a + S768x768.size a ≤ S772x772.size a
  inb_S772x772_S768x768_0_4 : ∀ a, (![0, 4] : Fin 2 → Nat) a + S768x768.size a ≤ S772x772.size a
  inb_S772x772_S768x768_1_0 : ∀ a, (![1, 0] : Fin 2 → Nat) a + S768x768.size a ≤ S772x772.size a
  inb_S772x772_S768x768_1_1 : ∀ a, (![1, 1] : Fin 2 → Nat) a + S768x768.size a ≤ S772x772.size a
  inb_S772x772_S768x768_1_2 : ∀ a, (![1, 2] : Fin 2 → Nat) a + S768x768.size a ≤ S772x772.size a
  inb_S772x772_S768x768_1_3 : ∀ a, (![1, 3] : Fin 2 → Nat) a + S768x768.size a ≤ S772x772.size a
  inb_S772x772_S768x768_1_4 : ∀ a, (![1, 4] : Fin 2 → Nat) a + S768x768.size a ≤ S772x772.size a
  inb_S772x772_S768x768_2_0 : ∀ a, (![2, 0] : Fin 2 → Nat) a + S768x768.size a ≤ S772x772.size a
  inb_S772x772_S768x768_2_1 : ∀ a, (![2, 1] : Fin 2 → Nat) a + S768x768.size a ≤ S772x772.size a
  inb_S772x772_S768x768_2_3 : ∀ a, (![2, 3] : Fin 2 → Nat) a + S768x768.size a ≤ S772x772.size a
  inb_S772x772_S768x768_2_4 : ∀ a, (![2, 4] : Fin 2 → Nat) a + S768x768.size a ≤ S772x772.size a
  inb_S772x772_S768x768_3_0 : ∀ a, (![3, 0] : Fin 2 → Nat) a + S768x768.size a ≤ S772x772.size a
  inb_S772x772_S768x768_3_1 : ∀ a, (![3, 1] : Fin 2 → Nat) a + S768x768.size a ≤ S772x772.size a
  inb_S772x772_S768x768_3_2 : ∀ a, (![3, 2] : Fin 2 → Nat) a + S768x768.size a ≤ S772x772.size a
  inb_S772x772_S768x768_3_3 : ∀ a, (![3, 3] : Fin 2 → Nat) a + S768x768.size a ≤ S772x772.size a
  inb_S772x772_S768x768_3_4 : ∀ a, (![3, 4] : Fin 2 → Nat) a + S768x768.size a ≤ S772x772.size a
  inb_S772x772_S768x768_4_0 : ∀ a, (![4, 0] : Fin 2 → Nat) a + S768x768.size a ≤ S772x772.size a
  inb_S772x772_S768x768_4_1 : ∀ a, (![4, 1] : Fin 2 → Nat) a + S768x768.size a ≤ S772x772.size a
  inb_S772x772_S768x768_4_2 : ∀ a, (![4, 2] : Fin 2 → Nat) a + S768x768.size a ≤ S772x772.size a
  inb_S772x772_S768x768_4_3 : ∀ a, (![4, 3] : Fin 2 → Nat) a + S768x768.size a ≤ S772x772.size a
  inb_S772x772_S768x768_4_4 : ∀ a, (![4, 4] : Fin 2 → Nat) a + S768x768.size a ≤ S772x772.size a
  shapeCasts_S768x768_S1x1x768x768 : S768x768.ShapeCasts S1x1x768x768
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x768x768.size a ≤ S4x1x768x768.size a
  hwx0_0 : ∀ i : grid0.Coords, EltTy.bits .f32 = 32 ∨ (Rect.block (s := S4x1x768x768) S1x1x768x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x768x768.size a ≤ S4x1x768x768.size a
  hwx0_1 : ∀ i : grid0.Coords, EltTy.bits .f32 = 32 ∨ (Rect.block (s := S4x1x768x768) S1x1x768x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x768x768.size a ≤ S4x1x768x768.size a
  hwx0_2 : ∀ i : grid0.Coords, EltTy.bits .f32 = 32 ∨ (Rect.block (s := S4x1x768x768) S1x1x768x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x768x768.size a ≤ S4x1x768x768.size a
  hwx0_3 : ∀ i : grid0.Coords, EltTy.bits .f32 = 32 ∨ (Rect.block (s := S4x1x768x768) S1x1x768x768.size (cc0_transform_3 i) (hinb0_3 i)).WholeWords (EltTy.packing .f32)

variable [Facts₀]

abbrev win0_0 : Pipeline.Window sig grid0 :=
  Pipeline.Window.ofSpec (Memref.whole main_arg0) S1x1x768x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x768x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x768x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x768x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x1x768x768 : Shape := ⟨4, ![4, 1, 768, 768]⟩
abbrev S25 : Shape := ⟨1, ![25]⟩
abbrev S_ : Shape := ⟨0, ![]⟩
abbrev S4x1x772x772 : Shape := ⟨4, ![4, 1, 772, 772]⟩
abbrev S4x1x1x768x768 : Shape := ⟨5, ![4, 1, 1, 768, 768]⟩
abbrev S4x1x16x768x768 : Shape := ⟨5, ![4, 1, 16, 768, 768]⟩
abbrev S4x1x9x768x768 : Shape := ⟨5, ![4, 1, 9, 768, 768]⟩
abbrev S4x1x25x768x768 : Shape := ⟨5, ![4, 1, 25, 768, 768]⟩
abbrev S1x1x25x1x1 : Shape := ⟨5, ![1, 1, 25, 1, 1]⟩

abbrev nBuf : Space → Nat
  | .hbm => 83
  | .vmem => 0
  | .smem => 0
  | _ => 0

abbrev bufTy : (tb : Table) → Fin (tcTables nBuf tb) → BufTy
  | .hbm, ⟨0, _⟩ => ⟨S4x1x768x768, .f32⟩
  | .hbm, ⟨1, _⟩ => ⟨S4x1x768x768, .f32⟩
  | .hbm, ⟨2, _⟩ => ⟨S25, .f32⟩
  | .hbm, ⟨3, _⟩ => ⟨S_, .f32⟩
  | .hbm, ⟨4, _⟩ => ⟨S4x1x768x768, .f32⟩
  | .hbm, ⟨5, _⟩ => ⟨S4x1x768x768, .f32⟩
  | .hbm, ⟨6, _⟩ => ⟨S_, .i32⟩
  | .hbm, ⟨7, _⟩ => ⟨S_, .f32⟩
  | .hbm, ⟨8, _⟩ => ⟨S4x1x772x772, .f32⟩
  | .hbm, ⟨9, _⟩ => ⟨S4x1x768x768, .f32⟩
  | .hbm, ⟨10, _⟩ => ⟨S4x1x768x768, .f32⟩
  | .hbm, ⟨11, _⟩ => ⟨S4x1x768x768, .f32⟩
  | .hbm, ⟨12, _⟩ => ⟨S4x1x768x768, .f32⟩
  | .hbm, ⟨13, _⟩ => ⟨S4x1x768x768, .f32⟩
  | .hbm, ⟨14, _⟩ => ⟨S4x1x768x768, .f32⟩
  | .hbm, ⟨15, _⟩ => ⟨S4x1x768x768, .f32⟩
  | .hbm, ⟨16, _⟩ => ⟨S4x1x768x768, .f32⟩
  | .hbm, ⟨17, _⟩ => ⟨S4x1x768x768, .f32⟩
  | .hbm, ⟨18, _⟩ => ⟨S4x1x768x768, .f32⟩
  | .hbm, ⟨19, _⟩ => ⟨S4x1x768x768, .f32⟩
  | .hbm, ⟨20, _⟩ => ⟨S4x1x768x768, .f32⟩
  | .hbm, ⟨21, _⟩ => ⟨S4x1x768x768, .f32⟩
  | .hbm, ⟨22, _⟩ => ⟨S4x1x768x768, .f32⟩
  | .hbm, ⟨23, _⟩ => ⟨S4x1x768x768, .f32⟩
  | .hbm, ⟨24, _⟩ => ⟨S4x1x768x768, .f32⟩
  | .hbm, ⟨25, _⟩ => ⟨S4x1x768x768, .f32⟩
  | .hbm, ⟨26, _⟩ => ⟨S4x1x768x768, .f32⟩
  | .hbm, ⟨27, _⟩ => ⟨S4x1x768x768, .f32⟩
  | .hbm, ⟨28, _⟩ => ⟨S4x1x768x768, .f32⟩
  | .hbm, ⟨29, _⟩ => ⟨S4x1x768x768, .f32⟩
  | .hbm, ⟨30, _⟩ => ⟨S4x1x768x768, .f32⟩
  | .hbm, ⟨31, _⟩ => ⟨S4x1x768x768, .f32⟩
  | .hbm, ⟨32, _⟩ => ⟨S4x1x768x768, .f32⟩
  | .hbm, ⟨33, _⟩ => ⟨S4x1x768x768, .f32⟩
  | .hbm, ⟨34, _⟩ => ⟨S4x1x1x768x768, .f32⟩
  | .hbm, ⟨35, _⟩ => ⟨S4x1x1x768x768, .f32⟩
  | .hbm, ⟨36, _⟩ => ⟨S4x1x1x768x768, .f32⟩
  | .hbm, ⟨37, _⟩ => ⟨S4x1x1x768x768, .f32⟩
  | .hbm, ⟨38, _⟩ => ⟨S4x1x1x768x768, .f32⟩
  | .hbm, ⟨39, _⟩ => ⟨S4x1x1x768x768, .f32⟩
  | .hbm, ⟨40, _⟩ => ⟨S4x1x1x768x768, .f32⟩
  | .hbm, ⟨41, _⟩ => ⟨S4x1x1x768x768, .f32⟩
  | .hbm, ⟨42, _⟩ => ⟨S4x1x1x768x768, .f32⟩
  | .hbm, ⟨43, _⟩ => ⟨S4x1x1x768x768, .f32⟩
  | .hbm, ⟨44, _⟩ => ⟨S4x1x1x768x768, .f32⟩
  | .hbm, ⟨45, _⟩ => ⟨S4x1x1x768x768, .f32⟩
  | .hbm, ⟨46, _⟩ => ⟨S4x1x1x768x768, .f32⟩
  | .hbm, ⟨47, _⟩ => ⟨S4x1x1x768x768, .f32⟩
  | .hbm, ⟨48, _⟩ => ⟨S4x1x1x768x768, .f32⟩
  | .hbm, ⟨49, _⟩ => ⟨S4x1x1x768x768, .f32⟩
  | .hbm, ⟨50, _⟩ => ⟨S4x1x1x768x768, .f32⟩
  | .hbm, ⟨51, _⟩ => ⟨S4x1x1x768x768, .f32⟩
  | .hbm, ⟨52, _⟩ => ⟨S4x1x1x768x768, .f32⟩
  | .hbm, ⟨53, _⟩ => ⟨S4x1x1x768x768, .f32⟩
  | .hbm, ⟨54, _⟩ => ⟨S4x1x1x768x768, .f32⟩
  | .hbm, ⟨55, _⟩ => ⟨S4x1x1x768x768, .f32⟩
  | .hbm, ⟨56, _⟩ => ⟨S4x1x1x768x768, .f32⟩
  | .hbm, ⟨57, _⟩ => ⟨S4x1x1x768x768, .f32⟩
  | .hbm, ⟨58, _⟩ => ⟨S4x1x1x768x768, .f32⟩
  | .hbm, ⟨59, _⟩ => ⟨S4x1x16x768x768, .f32⟩
  | .hbm, ⟨60, _⟩ => ⟨S4x1x9x768x768, .f32⟩
  | .hbm, ⟨61, _⟩ => ⟨S4x1x25x768x768, .f32⟩
  | .hbm, ⟨62, _⟩ => ⟨S1x1x25x1x1, .f32⟩
  | .hbm, ⟨63, _⟩ => ⟨S1x1x25x1x1, .f32⟩
  | .hbm, ⟨64, _⟩ => ⟨S4x1x768x768, .f32⟩
  | .hbm, ⟨65, _⟩ => ⟨S4x1x1x768x768, .f32⟩
  | .hbm, ⟨66, _⟩ => ⟨S_, .f32⟩
  | .hbm, ⟨67, _⟩ => ⟨S4x1x1x768x768, .f32⟩
  | .hbm, ⟨68, _⟩ => ⟨S4x1x1x768x768, .f32⟩
  | .hbm, ⟨69, _⟩ => ⟨S_, .f32⟩
  | .hbm, ⟨70, _⟩ => ⟨S4x1x1x768x768, .f32⟩
  | .hbm, ⟨71, _⟩ => ⟨S4x1x1x768x768, .f32⟩
  | .hbm, ⟨72, _⟩ => ⟨S4x1x25x768x768, .f32⟩
  | .hbm, ⟨73, _⟩ => ⟨S4x1x25x768x768, .f32⟩
  | .hbm, ⟨74, _⟩ => ⟨S4x1x25x768x768, .f32⟩
  | .hbm, ⟨75, _⟩ => ⟨S4x1x25x768x768, .f32⟩
  | .hbm, ⟨76, _⟩ => ⟨S4x1x25x768x768, .f32⟩
  | .hbm, ⟨77, _⟩ => ⟨S_, .f32⟩
  | .hbm, ⟨78, _⟩ => ⟨S4x1x768x768, .f32⟩
  | .hbm, ⟨79, _⟩ => ⟨S_, .f32⟩
  | .hbm, ⟨80, _⟩ => ⟨S4x1x768x768, .f32⟩
  | .hbm, ⟨81, _⟩ => ⟨S4x1x768x768, .i1⟩
  | .hbm, ⟨82, _⟩ => ⟨S4x1x768x768, .f32⟩
  | _, _ => ⟨S4x1x768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_c : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_cst_0 : Ref sig .tc := ⟨.hbm, 66, rfl⟩
abbrev main_v59 : Ref sig .tc := ⟨.hbm, 67, rfl⟩
abbrev main_v60 : Ref sig .tc := ⟨.hbm, 68, rfl⟩
abbrev main_cst_1 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_cst_2 : Ref sig .tc := ⟨.hbm, 77, rfl⟩
abbrev main_v68 : Ref sig .tc := ⟨.hbm, 78, rfl⟩
abbrev main_cst_3 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩

abbrev nD : Nat := 1
abbrev τ : Topo := Topo.v7x

variable {F : FTy → Type} [FloatOps F]

class Facts₀ : Prop where
  bcast_S_S4x1x768x768 : S_.BroadcastsInDim S4x1x768x768 (![] : Fin 0 → Fin S4x1x768x768.rank)
  pads_S4x1x768x768_S4x1x772x772_000_000_220_220 : S4x1x768x768.Pads (![0, 0, 2, 2] : Fin 4 → Nat) ![0, 0, 2, 2] ![0, 0, 0, 0] S4x1x772x772
  h_S_ : 0 < S_.numel
  slices_S4x1x772x772_S4x1x768x768_0_0_0_0 : S4x1x772x772.Slices ![0, 0, 0, 0] S4x1x768x768
  slices_S4x1x772x772_S4x1x768x768_0_0_0_1 : S4x1x772x772.Slices ![0, 0, 0, 1] S4x1x768x768
  slices_S4x1x772x772_S4x1x768x768_0_0_0_2 : S4x1x772x772.Slices ![0, 0, 0, 2] S4x1x768x768
  slices_S4x1x772x772_S4x1x768x768_0_0_0_3 : S4x1x772x772.Slices ![0, 0, 0, 3] S4x1x768x768
  slices_S4x1x772x772_S4x1x768x768_0_0_0_4 : S4x1x772x772.Slices ![0, 0, 0, 4] S4x1x768x768
  slices_S4x1x772x772_S4x1x768x768_0_0_1_0 : S4x1x772x772.Slices ![0, 0, 1, 0] S4x1x768x768
  slices_S4x1x772x772_S4x1x768x768_0_0_1_1 : S4x1x772x772.Slices ![0, 0, 1, 1] S4x1x768x768
  slices_S4x1x772x772_S4x1x768x768_0_0_1_2 : S4x1x772x772.Slices ![0, 0, 1, 2] S4x1x768x768
  slices_S4x1x772x772_S4x1x768x768_0_0_1_3 : S4x1x772x772.Slices ![0, 0, 1, 3] S4x1x768x768
  slices_S4x1x772x772_S4x1x768x768_0_0_1_4 : S4x1x772x772.Slices ![0, 0, 1, 4] S4x1x768x768
  slices_S4x1x772x772_S4x1x768x768_0_0_2_0 : S4x1x772x772.Slices ![0, 0, 2, 0] S4x1x768x768
  slices_S4x1x772x772_S4x1x768x768_0_0_2_1 : S4x1x772x772.Slices ![0, 0, 2, 1] S4x1x768x768
  slices_S4x1x772x772_S4x1x768x768_0_0_2_2 : S4x1x772x772.Slices ![0, 0, 2, 2] S4x1x768x768
  slices_S4x1x772x772_S4x1x768x768_0_0_2_3 : S4x1x772x772.Slices ![0, 0, 2, 3] S4x1x768x768
  slices_S4x1x772x772_S4x1x768x768_0_0_2_4 : S4x1x772x772.Slices ![0, 0, 2, 4] S4x1x768x768
  slices_S4x1x772x772_S4x1x768x768_0_0_3_0 : S4x1x772x772.Slices ![0, 0, 3, 0] S4x1x768x768
  slices_S4x1x772x772_S4x1x768x768_0_0_3_1 : S4x1x772x772.Slices ![0, 0, 3, 1] S4x1x768x768
  slices_S4x1x772x772_S4x1x768x768_0_0_3_2 : S4x1x772x772.Slices ![0, 0, 3, 2] S4x1x768x768
  slices_S4x1x772x772_S4x1x768x768_0_0_3_3 : S4x1x772x772.Slices ![0, 0, 3, 3] S4x1x768x768
  slices_S4x1x772x772_S4x1x768x768_0_0_3_4 : S4x1x772x772.Slices ![0, 0, 3, 4] S4x1x768x768
  slices_S4x1x772x772_S4x1x768x768_0_0_4_0 : S4x1x772x772.Slices ![0, 0, 4, 0] S4x1x768x768
  slices_S4x1x772x772_S4x1x768x768_0_0_4_1 : S4x1x772x772.Slices ![0, 0, 4, 1] S4x1x768x768
  slices_S4x1x772x772_S4x1x768x768_0_0_4_2 : S4x1x772x772.Slices ![0, 0, 4, 2] S4x1x768x768
  slices_S4x1x772x772_S4x1x768x768_0_0_4_3 : S4x1x772x772.Slices ![0, 0, 4, 3] S4x1x768x768
  slices_S4x1x772x772_S4x1x768x768_0_0_4_4 : S4x1x772x772.Slices ![0, 0, 4, 4] S4x1x768x768
  bcast_S4x1x768x768_S4x1x1x768x768_0_1_3_4 : S4x1x768x768.BroadcastsInDim S4x1x1x768x768 (![0, 1, 3, 4] : Fin 4 → Fin S4x1x1x768x768.rank)
  concatenates_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x16x768x768_d2 : Shape.Concatenates [S4x1x1x768x768, S4x1x1x768x768, S4x1x1x768x768, S4x1x1x768x768, S4x1x1x768x768, S4x1x1x768x768, S4x1x1x768x768, S4x1x1x768x768, S4x1x1x768x768, S4x1x1x768x768, S4x1x1x768x768, S4x1x1x768x768, S4x1x1x768x768, S4x1x1x768x768, S4x1x1x768x768, S4x1x1x768x768] S4x1x16x768x768 2
  concatenates_S4x1x1x768x768_S4x1x1x768x768_S4x1x1x768x768_S4x1x1x768x768_S4x1x1x768x768_S4x1x1x768x768_S4x1x1x768x768_S4x1x1x768x768_S4x1x1x768x768_S4x1x9x768x768_d2 : Shape.Concatenates [S4x1x1x768x768, S4x1x1x768x768, S4x1x1x768x768, S4x1x1x768x768, S4x1x1x768x768, S4x1x1x768x768, S4x1x1x768x768, S4x1x1x768x768, S4x1x1x768x768] S4x1x9x768x768 2
  concatenates_S4x1x16x768x768_S4x1x9x768x768_S4x1x25x768x768_d2 : Shape.Concatenates [S4x1x16x768x768, S4x1x9x768x768] S4x1x25x768x768 2
  bcast_S25_S1x1x25x1x1_2 : S25.BroadcastsInDim S1x1x25x1x1 (![2] : Fin 1 → Fin S1x1x25x1x1.rank)
  bcast_S_S4x1x1x768x768 : S_.BroadcastsInDim S4x1x1x768x768 (![] : Fin 0 → Fin S4x1x1x768x768.rank)
  bcast_S1x1x25x1x1_S4x1x25x768x768_0_1_2_3_4 : S1x1x25x1x1.BroadcastsInDim S4x1x25x768x768 (![0, 1, 2, 3, 4] : Fin 5 → Fin S4x1x25x768x768.rank)
  bcast_S4x1x1x768x768_S4x1x25x768x768_0_1_2_3_4 : S4x1x1x768x768.BroadcastsInDim S4x1x25x768x768 (![0, 1, 2, 3, 4] : Fin 5 → Fin S4x1x25x768x768.rank)
  reducesTo_S4x1x25x768x768_S4x1x768x768_d2 : S4x1x25x768x768.ReducesTo [2] S4x1x768x768

variable [Facts₀]

class Facts : Prop extends Facts₀ where

variable [Facts]
-- ==== Proof.Spec.lean ====
/-
  What both programs compute, stated once as functions of the two argument arrays.

  The input x is four one-channel images of 768 × 768 pixels and s a scale per pixel.  Each image is passed
  through max · 0 and framed by two rows and two columns of zeros on every side (`padRelu`, indexed by the
  coordinates of the 772 × 772 framed image).  The first result at pixel (r, c) is the sum over the 25 taps
  k = 5·dy + dx of a 5 × 5 window of the framed image at (r + dy, c + dx), each weighted by
  exp (−ρ²ₖ / (2 s² + ε)), where ρ²ₖ = (dy − 2)² + (dx − 2)² and s is the scale AT THE OUTPUT PIXEL (so the
  weight depends on the tap only through ρ²ₖ); the second result is 1 where the first is at least one half
  and 0 elsewhere.

  Float words are kept as words (`Ideal.ofBits`): both programs spell the same ones, so none is evaluated here.
-/
import Idealize.ShloMosaic.PureOps.Ideal
import Idealize.ShloMosaic.Lib.ValueIdx

noncomputable section

namespace Cert.Spec

open Idealize.ShloMosaic Idealize.ShloMosaic.ValueIdx
open scoped BigOperators

/-- Four images, one channel, 768 rows of 768 columns. -/
abbrev SImg : Shape := ⟨4, ![4, 1, 768, 768]⟩

/-- The squared distance (dy − 2)² + (dx − 2)² of tap k = 5·dy + dx from the window's centre, as the f32
    word that spells it (8, 5, 4, 5, 8; 5, 2, 1, 2, 5; 4, 1, 0, 1, 4; then the first two rows mirrored). -/
def r2 : Fin 25 → BitVec 32 := fun
  | 0 => 0x41000000#32 | 1 => 0x40A00000#32 | 2 => 0x40800000#32 | 3 => 0x40A00000#32 | 4 => 0x41000000#32 | 5 => 0x40A00000#32 | 6 => 0x40000000#32 | 7 => 0x3F800000#32
  | 8 => 0x40000000#32 | 9 => 0x40A00000#32 | 10 => 0x40800000#32 | 11 => 0x3F800000#32 | 12 => 0x00000000#32 | 13 => 0x3F800000#32 | 14 => 0x40800000#32 | 15 => 0x40A00000#32
  | 16 => 0x40000000#32 | 17 => 0x3F800000#32 | 18 => 0x40000000#32 | 19 => 0x40A00000#32 | 20 => 0x41000000#32 | 21 => 0x40A00000#32 | 22 => 0x40800000#32 | 23 => 0x40A00000#32
  | 24 => 0x41000000#32
  | _ => 0#32

/-- The Gaussian's denominator at a pixel of scale s: 2 s² + ε, with 2 and ε (the f32 nearest 10⁻⁶) the words
    both programs spell. -/
def den (s : EReal) : EReal :=
  Ideal.ofBits .f32 0x40000000#32 * (s * s) + Ideal.ofBits .f32 0x358637BD#32

/-- Tap k's weight over the denominator d: exp (−ρ²ₖ / d). -/
def weight (k : Fin 25) (d : EReal) : EReal :=
  Ideal.exp (Ideal.div (-(Ideal.ofBits .f32 (r2 k))) d)

/-- The image after max · 0, framed by two zero rows and columns on each side, at the framed coordinates (u, v)
    (any natural numbers: outside the 768 × 768 interior it is zero). -/
def padRelu (img : Fin 768 → Fin 768 → EReal) (u v : ℕ) : EReal :=
  if h : (2 ≤ u ∧ u < 770) ∧ (2 ≤ v ∧ v < 770) then max (img ⟨u - 2, by omega⟩ ⟨v - 2, by omega⟩) 0 else 0

/-- The windowed sum at pixel (r, c) over the denominator d of that pixel. -/
def convAt (img : Fin 768 → Fin 768 → EReal) (d : EReal) (r c : ℕ) : EReal :=
  ∑ k : Fin 25, padRelu img (r + k.val / 5) (c + k.val % 5) * weight k d

/-- The threshold at one half, as the number 1 or 0. -/
def maskAt (v : EReal) : EReal :=
  (((Ideal.cmp .oge v (Ideal.ofBits .f32 0x3F000000#32)).toNat : ℝ) : EReal)

/-- Image b of the batch, by its rows and columns. -/
def img (x : SImg.Idx → EReal) (b : Fin 4) : Fin 768 → Fin 768 → EReal := fun r c => x (ix4 b 0 r c)

/-- THE FIRST RESULT: the windowed, scale-weighted sum of the framed max x 0, image by image. -/
def conv (x s : SImg.Idx → EReal) : SImg.Idx → EReal :=
  fun j => convAt (img x (j 0)) (den (s j)) (j 2).val (j 3).val

/-- THE SECOND RESULT: where the first is at least one half. -/
def mask (x s : SImg.Idx → EReal) : SImg.Idx → EReal := fun j => maskAt (conv x s j)

/-- Every index of the batch is (b, 0, r, c): the channel axis has one coordinate. -/
theorem exists_ix4 (j : SImg.Idx) : ∃ (b : Fin 4) (r c : Fin 768), j = ix4 b 0 r c := by
  refine ⟨j 0, j 2, j 3, ?_⟩
  funext a
  match a with
  | ⟨0, _⟩ => rfl
  | ⟨1, _⟩ => exact Subsingleton.elim (α := Fin 1) _ _
  | ⟨2, _⟩ => rfl
  | ⟨3, _⟩ => rfl

theorem conv_ix4 (x s : SImg.Idx → EReal) (b : Fin 4) (r c : Fin 768) :
    conv x s (ix4 b 0 r c) = convAt (img x b) (den (s (ix4 b 0 r c))) r.val c.val := rfl

theorem mask_ix4 (x s : SImg.Idx → EReal) (b : Fin 4) (r c : Fin 768) :
    mask x s (ix4 b 0 r c) = maskAt (convAt (img x b) (den (s (ix4 b 0 r c))) r.val c.val) := rfl

end Cert.Spec

end
-- ==== Proof.KernelScratch.lean ====
/-
  What the kernel's body holds in its 772 × 772 scratch buffer, and what the 25 shifted loads read from it.

  The body first fills the whole scratch with the zero word, then writes max (block) 0 of the point's 768 × 768 image
  block into the rectangle of rows and columns 2 … 769.  Whatever order one reads these two writes in, the
  scratch at (u, v) is max (block (u − 2, v − 2)) 0 inside that rectangle and zero outside it: the framed image
  of the specification (`Cert.Spec.padRelu`).  A load of 768 × 768 entries at offset (dy, dx) reads the scratch
  at (r + dy, c + dx) for its entry (r, c).  The per-pixel denominator is (2 · s) · s + ε of the scale block.
-/
import proofs.«144998_j90108413870322_2_alg».proof.Proof.Gen.KernelIdeal.Skeleton
import proofs.«144998_j90108413870322_2_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

theorem hz2 : (![0, 0] : Fin 2 → Nat) = fun _ => 0 := by
  funext a; match a with | ⟨0, _⟩ => rfl | ⟨1, _⟩ => rfl

theorem hz4 : (![0, 0, 0, 0] : Fin 4 → Nat) = fun _ => 0 := by
  funext a; match a with | ⟨0, _⟩ => rfl | ⟨1, _⟩ => rfl | ⟨2, _⟩ => rfl | ⟨3, _⟩ => rfl

/-- A 1 × 1 × 768 × 768 block viewed as 768 × 768 reads (0, 0, r, c) at (r, c). -/
theorem cast_block_apply {α : Type} (x : S1x1x768x768.Idx → α) (r c : Fin 768) :
    shapeCast S768x768 x shapeCasts_S1x1x768x768_S768x768 (ix2 r c) = x (ix4 0 0 r c) :=
  shapeCast_apply x _ (ix2 r c) (ix4 0 0 r c) (by
    rw [Shape.rowMajor_val_four, Shape.rowMajor_val_two]
    show ((0 * 1 + 0) * 768 + r.val) * 768 + c.val = r.val * 768 + c.val
    omega)

/-- … and a 768 × 768 value stored as a 1 × 1 × 768 × 768 block reads (r, c) at (0, 0, r, c). -/
theorem cast_unblock_apply {α : Type} (x : S768x768.Idx → α) (r c : Fin 768) :
    shapeCast S1x1x768x768 x shapeCasts_S768x768_S1x1x768x768 (ix4 0 0 r c) = x (ix2 r c) :=
  shapeCast_apply x _ (ix4 0 0 r c) (ix2 r c) (by
    rw [Shape.rowMajor_val_four, Shape.rowMajor_val_two]
    show r.val * 768 + c.val = ((0 * 1 + 0) * 768 + r.val) * 768 + c.val
    omega)

/-- The image block by rows and columns. -/
def blkImg (x0 : Vec Ideal S1x1x768x768 .f32) : Fin 768 → Fin 768 → EReal := fun r c => x0 (ix4 0 0 r c)

/-- What is written into the scratch's interior: max (block) 0. -/
theorem relu_apply (x0 : Vec Ideal S1x1x768x768 .f32) (r c : Fin 768) :
    k0_pay6 (F := Ideal) x0 (ix2 r c) = max (blkImg x0 r c) 0 := by
  unfold k0_pay6
  rw [shapeCast_self]
  show max (shapeCast S768x768 x0 shapeCasts_S1x1x768x768_S768x768 (ix2 r c)) (Ideal.ofBits .f32 0x00000000#32) = _
  rw [cast_block_apply, Ideal.ofBits_zero_f32]; rfl

/-- The fill: zero everywhere. -/
theorem fill_apply (y : S772x772.Idx) : k0_pay5 (F := Ideal) y = 0 := by
  unfold k0_pay5
  rw [shapeCast_self]
  exact Ideal.ofBits_zero_f32

/-- The scratch after the body's two stores (the later one first), as one function of its index. -/
def scr (x0 : Vec Ideal S1x1x768x768 .f32) : S772x772.Idx → Elt Ideal .f32 :=
  View.canon (Val := Elt Ideal)
    [⟨Rect.unit (s := S772x772) ![2, 2] S768x768.size inb_S772x772_S768x768_2_2, k0_pay6 (F := Ideal) x0⟩,
     ⟨Rect.unit (s := S772x772) ![0, 0] S772x772.size inb_S772x772_S772x772_0_0, k0_pay5 (F := Ideal)⟩]

/-- THE SCRATCH IS THE FRAMED IMAGE. -/
theorem scr_apply (x0 : Vec Ideal S1x1x768x768 .f32) (u v : Fin 772) :
    scr x0 (ix2 u v) = Cert.Spec.padRelu (blkImg x0) u.val v.val := by
  unfold scr Cert.Spec.padRelu
  by_cases h : (2 ≤ u.val ∧ u.val < 770) ∧ (2 ≤ v.val ∧ v.val < 770)
  · rw [dif_pos h]
    have e : (ix2 u v : S772x772.Idx)
        = (Rect.unit (s := S772x772) ![2, 2] S768x768.size inb_S772x772_S768x768_2_2).emb
            (ix2 (⟨u.val - 2, by omega⟩ : Fin 768) (⟨v.val - 2, by omega⟩ : Fin 768)) := by
      funext a
      apply Fin.ext
      rw [Rect.emb_apply]
      match a with
      | ⟨0, _⟩ => show u.val = 2 + 1 * (u.val - 2); omega
      | ⟨1, _⟩ => show v.val = 2 + 1 * (v.val - 2); omega
    rw [e, View.canon_cons_emb, relu_apply]
  · rw [dif_neg h]
    rw [View.canon_cons_of_not_mem _ _ (by
      rw [Rect.mem_set_unit]
      intro hm
      have h0 := hm 0
      have h1 := hm 1
      apply h
      change (2 ≤ u.val ∧ u.val < 2 + 768) at h0
      change (2 ≤ v.val ∧ v.val < 2 + 768) at h1
      omega), View.canon_unit_zero hz2]
    exact fill_apply _

end Cert.KernelIdeal.Body

end
-- ==== Proof.TapSum.lean ====
/-
  The same windowed sum written the way a sequential accumulation spells it: the 25 products added one after the
  other onto the zero word, each weight exp (w / d) with w the word of the NEGATIVE number −ρ²ₖ (−8, −5, −4, −2, −1
  and −0), and the denominator grouped (2 · s) · s + ε.  It is the specification's sum: the word of −a denotes the
  negative of the word of a (−0 and 0 both denote zero), a product of three extended reals does not depend on its
  grouping, and a finite sum does not depend on the order or grouping of its terms (the extended reals are a
  commutative monoid under +, with ⊤ + ⊥ = ⊥: no finiteness is used anywhere).
-/
import proofs.«144998_j90108413870322_2_alg».proof.Proof.Spec
import Idealize.ShloMosaic.PureOps.Ideal.Laws

noncomputable section

namespace Cert.Spec

open Idealize.ShloMosaic
open scoped BigOperators

/-- The word of −ρ²ₖ: tap k's squared distance with the sign bit set. -/
def negR2 : Fin 25 → BitVec 32 := fun
  | 0 => 0xC1000000#32 | 1 => 0xC0A00000#32 | 2 => 0xC0800000#32 | 3 => 0xC0A00000#32 | 4 => 0xC1000000#32 | 5 => 0xC0A00000#32 | 6 => 0xC0000000#32 | 7 => 0xBF800000#32 | 8 => 0xC0000000#32 | 9 => 0xC0A00000#32 | 10 => 0xC0800000#32 | 11 => 0xBF800000#32 | 12 => 0x80000000#32 | 13 => 0xBF800000#32 | 14 => 0xC0800000#32 | 15 => 0xC0A00000#32 | 16 => 0xC0000000#32 | 17 => 0xBF800000#32 | 18 => 0xC0000000#32 | 19 => 0xC0A00000#32 | 20 => 0xC1000000#32 | 21 => 0xC0A00000#32 | 22 => 0xC0800000#32 | 23 => 0xC0A00000#32 | 24 => 0xC1000000#32
  | _ => 0#32

/-- Tap k's weight spelt with the negative word. -/
def kw (k : Fin 25) (d : EReal) : EReal := Ideal.exp (Ideal.div (Ideal.ofBits .f32 (negR2 k)) d)

/-- The denominator grouped (2 · s) · s + ε. -/
def denK (s : EReal) : EReal :=
  Ideal.ofBits .f32 0x40000000#32 * s * s + Ideal.ofBits .f32 0x358637BD#32

/-- The 25 products L k · exp (−ρ²ₖ / d) added in order onto the zero word. -/
def convK (L : Fin 25 → EReal) (d : EReal) : EReal :=
    Ideal.ofBits .f32 0x00000000#32
    + L 0 * kw 0 d
    + L 1 * kw 1 d
    + L 2 * kw 2 d
    + L 3 * kw 3 d
    + L 4 * kw 4 d
    + L 5 * kw 5 d
    + L 6 * kw 6 d
    + L 7 * kw 7 d
    + L 8 * kw 8 d
    + L 9 * kw 9 d
    + L 10 * kw 10 d
    + L 11 * kw 11 d
    + L 12 * kw 12 d
    + L 13 * kw 13 d
    + L 14 * kw 14 d
    + L 15 * kw 15 d
    + L 16 * kw 16 d
    + L 17 * kw 17 d
    + L 18 * kw 18 d
    + L 19 * kw 19 d
    + L 20 * kw 20 d
    + L 21 * kw 21 d
    + L 22 * kw 22 d
    + L 23 * kw 23 d
    + L 24 * kw 24 d

theorem denK_eq (s : EReal) : denK s = den s := by
  unfold denK den; rw [mul_assoc]

/-- Setting the sign bit negates: the six words that occur. -/
theorem neg8 : Ideal.ofBits .f32 0xC1000000#32 = -(Ideal.ofBits .f32 0x41000000#32) := by
  simp [Ideal.ofBits, Ideal.ieee, -EReal.coe_mul, -EReal.coe_neg]; norm_num
theorem neg5 : Ideal.ofBits .f32 0xC0A00000#32 = -(Ideal.ofBits .f32 0x40A00000#32) := by
  simp [Ideal.ofBits, Ideal.ieee, -EReal.coe_mul, -EReal.coe_neg]; norm_num
theorem neg4 : Ideal.ofBits .f32 0xC0800000#32 = -(Ideal.ofBits .f32 0x40800000#32) := by
  simp [Ideal.ofBits, Ideal.ieee, -EReal.coe_mul, -EReal.coe_neg]; norm_num
theorem neg2 : Ideal.ofBits .f32 0xC0000000#32 = -(Ideal.ofBits .f32 0x40000000#32) := by
  simp [Ideal.ofBits, Ideal.ieee, -EReal.coe_mul, -EReal.coe_neg]; norm_num
theorem neg1 : Ideal.ofBits .f32 0xBF800000#32 = -(Ideal.ofBits .f32 0x3F800000#32) := by
  simp [Ideal.ofBits, Ideal.ieee, -EReal.coe_mul, -EReal.coe_neg]; norm_num
theorem neg0 : Ideal.ofBits .f32 0x80000000#32 = -(Ideal.ofBits .f32 0x00000000#32) := by
  simp [Ideal.ofBits, Ideal.ieee]

/-- So the word of −ρ²ₖ denotes the negative of the word of ρ²ₖ, tap by tap. -/
theorem negR2_eq (k : Fin 25) : Ideal.ofBits .f32 (negR2 k) = -(Ideal.ofBits .f32 (r2 k)) := by
  fin_cases k <;> first | exact neg8 | exact neg5 | exact neg4 | exact neg2 | exact neg1 | exact neg0

theorem kw_eq (k : Fin 25) (d : EReal) : kw k d = weight k d := by
  unfold kw weight; rw [negR2_eq]

/-- The sequential accumulation is the sum over the taps. -/
theorem convK_eq (f : Fin 25 → EReal) (d : EReal) : convK f d = ∑ k : Fin 25, f k * weight k d := by
  unfold convK
  simp only [kw_eq, Ideal.ofBits_zero_f32]
  simp only [Fin.sum_univ_castSucc, Fin.sum_univ_zero]
  rfl

/-- At pixel (r, c) of an image, over the denominator of the pixel's scale. -/
theorem convK_padRelu (img : Fin 768 → Fin 768 → EReal) (s : EReal) (r c : ℕ) :
    convK (fun k => padRelu img (r + k.val / 5) (c + k.val % 5)) (denK s) = convAt img (den s) r c := by
  rw [convK_eq, denK_eq]; rfl

end Cert.Spec

end
-- ==== Proof.KernelBody.lean ====
/-
  The kernel body's two results over a point's image block x0 and scale block x1.

  The body makes its 25 loads of the scratch in the order k = 5·dy + dx and adds the products
  load · exp (−ρ²ₖ / ((2 · s) · s + ε)) one after the other onto the zero word; what it stores in the first output
  block is that accumulated value, and in the second the comparison of it with one half, as 1 or 0.  Read at a pixel
  (r, c) these are the specification's `convAt` and `maskAt` of the block.
-/
import proofs.«144998_j90108413870322_2_alg».proof.Proof.Gen.KernelIdeal.Frame
import proofs.«144998_j90108413870322_2_alg».proof.Proof.KernelScratch
import proofs.«144998_j90108413870322_2_alg».proof.Proof.TapSum

set_option maxRecDepth 16384

noncomputable section

namespace Cert.KernelIdeal.Body

open Cert.KernelIdeal Cert.KernelIdeal.Gen Idealize.ShloMosaic Idealize.ShloMosaic.ValueIdx Idealize.ShloMosaic.Tactic

/-- A load of the scratch through a box: the scratch at the box's indices. -/
def tap (x0 : Vec Ideal S1x1x768x768 .f32) (B : LoadRect S772x772) : B.shape.Idx → Elt Ideal .f32 :=
  fun j => scr x0 (B.idx j)

/-- Entry (r, c) of the load at offset (dy, dx) is the framed image at (r + dy, c + dx). -/
theorem tap_apply (x0 : Vec Ideal S1x1x768x768 .f32) (dy dx : ℕ)
    (inb : ∀ a, (![dy, dx] : Fin 2 → ℕ) a + S768x768.size a ≤ S772x772.size a) (r c : Fin 768) :
    tap x0 (Rect.unit (s := S772x772) ![dy, dx] S768x768.size inb).toLoadRect (ix2 r c)
      = Cert.Spec.padRelu (blkImg x0) (r.val + dy) (c.val + dx) := by
  have hy : dy + 768 ≤ 772 := inb 0
  have hx : dx + 768 ≤ 772 := inb 1
  unfold tap
  have e : (Rect.unit (s := S772x772) ![dy, dx] S768x768.size inb).toLoadRect.idx (ix2 r c)
      = ix2 (⟨r.val + dy, by omega⟩ : Fin 772) (⟨c.val + dx, by omega⟩ : Fin 772) := by
    funext a
    apply Fin.ext
    rw [LoadRect.idx_apply]
    match a with
    | ⟨0, _⟩ => show dy + 1 * r.val = r.val + dy; omega
    | ⟨1, _⟩ => show dx + 1 * c.val = c.val + dx; omega
  rw [e, scr_apply]

/-- The 25 loads, in the order the body makes them: tap k = 5·dy + dx at offset (dy, dx). -/
def taps (x0 : Vec Ideal S1x1x768x768 .f32) : Fin 25 → Vec Ideal S768x768 .f32 := fun
  | 0 => tap x0 (Rect.unit (s := S772x772) ![0, 0] S768x768.size inb_S772x772_S768x768_0_0).toLoadRect
  | 1 => tap x0 (Rect.unit (s := S772x772) ![0, 1] S768x768.size inb_S772x772_S768x768_0_1).toLoadRect
  | 2 => tap x0 (Rect.unit (s := S772x772) ![0, 2] S768x768.size inb_S772x772_S768x768_0_2).toLoadRect
  | 3 => tap x0 (Rect.unit (s := S772x772) ![0, 3] S768x768.size inb_S772x772_S768x768_0_3).toLoadRect
  | 4 => tap x0 (Rect.unit (s := S772x772) ![0, 4] S768x768.size inb_S772x772_S768x768_0_4).toLoadRect
  | 5 => tap x0 (Rect.unit (s := S772x772) ![1, 0] S768x768.size inb_S772x772_S768x768_1_0).toLoadRect
  | 6 => tap x0 (Rect.unit (s := S772x772) ![1, 1] S768x768.size inb_S772x772_S768x768_1_1).toLoadRect
  | 7 => tap x0 (Rect.unit (s := S772x772) ![1, 2] S768x768.size inb_S772x772_S768x768_1_2).toLoadRect
  | 8 => tap x0 (Rect.unit (s := S772x772) ![1, 3] S768x768.size inb_S772x772_S768x768_1_3).toLoadRect
  | 9 => tap x0 (Rect.unit (s := S772x772) ![1, 4] S768x768.size inb_S772x772_S768x768_1_4).toLoadRect
  | 10 => tap x0 (Rect.unit (s := S772x772) ![2, 0] S768x768.size inb_S772x772_S768x768_2_0).toLoadRect
  | 11 => tap x0 (Rect.unit (s := S772x772) ![2, 1] S768x768.size inb_S772x772_S768x768_2_1).toLoadRect
  | 12 => tap x0 (Rect.unit (s := S772x772) ![2, 2] S768x768.size inb_S772x772_S768x768_2_2).toLoadRect
  | 13 => tap x0 (Rect.unit (s := S772x772) ![2, 3] S768x768.size inb_S772x772_S768x768_2_3).toLoadRect
  | 14 => tap x0 (Rect.unit (s := S772x772) ![2, 4] S768x768.size inb_S772x772_S768x768_2_4).toLoadRect
  | 15 => tap x0 (Rect.unit (s := S772x772) ![3, 0] S768x768.size inb_S772x772_S768x768_3_0).toLoadRect
  | 16 => tap x0 (Rect.unit (s := S772x772) ![3, 1] S768x768.size inb_S772x772_S768x768_3_1).toLoadRect
  | 17 => tap x0 (Rect.unit (s := S772x772) ![3, 2] S768x768.size inb_S772x772_S768x768_3_2).toLoadRect
  | 18 => tap x0 (Rect.unit (s := S772x772) ![3, 3] S768x768.size inb_S772x772_S768x768_3_3).toLoadRect
  | 19 => tap x0 (Rect.unit (s := S772x772) ![3, 4] S768x768.size inb_S772x772_S768x768_3_4).toLoadRect
  | 20 => tap x0 (Rect.unit (s := S772x772) ![4, 0] S768x768.size inb_S772x772_S768x768_4_0).toLoadRect
  | 21 => tap x0 (Rect.unit (s := S772x772) ![4, 1] S768x768.size inb_S772x772_S768x768_4_1).toLoadRect
  | 22 => tap x0 (Rect.unit (s := S772x772) ![4, 2] S768x768.size inb_S772x772_S768x768_4_2).toLoadRect
  | 23 => tap x0 (Rect.unit (s := S772x772) ![4, 3] S768x768.size inb_S772x772_S768x768_4_3).toLoadRect
  | 24 => tap x0 (Rect.unit (s := S772x772) ![4, 4] S768x768.size inb_S772x772_S768x768_4_4).toLoadRect
  | _ => fun _ => 0

theorem taps_apply (x0 : Vec Ideal S1x1x768x768 .f32) (k : Fin 25) (r c : Fin 768) :
    taps x0 k (ix2 r c) = Cert.Spec.padRelu (blkImg x0) (r.val + k.val / 5) (c.val + k.val % 5) := by
  fin_cases k <;> exact tap_apply x0 _ _ _ r c

/-- The denominator at a pixel: (2 · s) · s + ε of the scale there. -/
theorem den_apply (x1 : Vec Ideal S1x1x768x768 .f32) (r c : Fin 768) :
    k0_pay4 (F := Ideal) x1 (ix2 r c) = Cert.Spec.denK (x1 (ix4 0 0 r c)) := by
  unfold k0_pay4
  show Ideal.ofBits .f32 0x40000000#32 * shapeCast S768x768 x1 shapeCasts_S1x1x768x768_S768x768 (ix2 r c)
      * shapeCast S768x768 x1 shapeCasts_S1x1x768x768_S768x768 (ix2 r c) + Ideal.ofBits .f32 0x358637BD#32 = _
  rw [cast_block_apply]; rfl

/-- The value the body accumulates, over the two blocks. -/
def acc (x0 x1 : Vec Ideal S1x1x768x768 .f32) : FVec Ideal S768x768 .f32 :=
  k0_pay1 (F := Ideal) (k0_pay4 x1) (k0_pay11 (k0_pay4 x1) (k0_pay9 (k0_pay4 x1) (k0_pay8 (k0_pay4 x1) (k0_pay7 x1 (taps x0 0) (taps x0 1)) (taps x0 2) (taps x0 3) (taps x0 4) (taps x0 5) (taps x0 6) (taps x0 7) (taps x0 8)) (taps x0 9) (taps x0 10) (taps x0 11) (taps x0 12) (taps x0 13) (taps x0 14)) (taps x0 15) (k0_pay10 (k0_pay4 x1)) (taps x0 16) (taps x0 17) (taps x0 18) (taps x0 19) (taps x0 20) (taps x0 21)) (taps x0 22) (taps x0 23) (taps x0 24)

/-- Entry by entry it is the sequential sum of the 25 products. -/
theorem acc_apply (x0 x1 : Vec Ideal S1x1x768x768 .f32) (j : S768x768.Idx) :
    acc x0 x1 j = Cert.Spec.convK (fun k => taps x0 k j) (k0_pay4 (F := Ideal) x1 j) := rfl

/-- AT A PIXEL the accumulated value is the specification's windowed sum of the block. -/
theorem acc_pixel (x0 x1 : Vec Ideal S1x1x768x768 .f32) (r c : Fin 768) :
    acc x0 x1 (ix2 r c) = Cert.Spec.convAt (blkImg x0) (Cert.Spec.den (x1 (ix4 0 0 r c))) r.val c.val := by
  rw [acc_apply, den_apply]
  simp only [taps_apply]
  exact Cert.Spec.convK_padRelu _ _ _ _

end Cert.KernelIdeal.Body

end
-- ==== Proof.KernelPieces.lean ====
/-
  What the kernel's run leaves in the two output blocks at a grid point, as functions of the point's image block x0
  and scale block x1: the first block is the accumulated windowed sum, the second its comparison with one half as
  the number 1 or 0 (the comparison's bit widened to a 32-bit integer and converted: a bit b widened reads b, so
  the signed conversion the body uses and the unsigned reading of the bit agree).  Each is then read at a pixel.
-/
import proofs.«144998_j90108413870322_2_alg».proof.Proof.KernelBody

set_option maxRecDepth 16384

noncomputable section

namespace Cert.KernelIdeal.Body

open Cert.KernelIdeal Cert.KernelIdeal.Gen Idealize.ShloMosaic Idealize.ShloMosaic.ValueIdx Idealize.ShloMosaic.Tactic
open Idealize.ShloMosaic.TcCoe Idealize.SL.Sem

/-- The first output block: the accumulated value, stored as a 1 × 1 × 768 × 768 block. -/
theorem out2_eq (c : Dev nD) (i : grid0.Coords) (arg1 : Memref sig .tc .vmem S1x1x768x768 .f32) (harg1 : arg1.IsWhole) (arg2 : Memref sig .tc .vmem S1x1x768x768 .f32) (harg2 : arg2.IsWhole) (arg3 : Memref sig .tc .vmem S1x1x768x768 .f32) (harg3 : arg3.IsWhole) (arg4 : Memref sig .tc .vmem S1x1x768x768 .f32) (harg4 : arg4.IsWhole) (arg5 : Memref sig .tc .vmem S772x772 .f32) (harg5 : arg5.IsWhole)
    (x0 x1 : Vec Ideal S1x1x768x768 .f32) :
    out0_A_2 (F := Ideal) c i arg1 harg1 arg2 harg2 arg3 harg3 arg4 harg4 arg5 harg5 x0 x1
      = shapeCast S1x1x768x768 (acc x0 x1) shapeCasts_S768x768_S1x1x768x768 := by
  unfold out0_A_2
  rw [View.read_writes_eq_canon _ _ _ (cover0_A_2 c i arg1 harg1 arg2 harg2 arg3 harg3 arg4 harg4 arg5 harg5 x0 x1)]
  unfold kernelRun0_A
  dsimp only
  rw [View.canon_unit_zero hz4]
  sl_unfold_run_names
  simp only [View.readCov_eq_canon', View.readAt_eq_ld, harg1.read_unread, harg2.read_unread,
    View.ld_unit_zero (S := S1x1x768x768) hz4]
  rfl

/-- The second output block: the accumulated value compared with one half, as a float. -/
theorem out3_eq (c : Dev nD) (i : grid0.Coords) (arg1 : Memref sig .tc .vmem S1x1x768x768 .f32) (harg1 : arg1.IsWhole) (arg2 : Memref sig .tc .vmem S1x1x768x768 .f32) (harg2 : arg2.IsWhole) (arg3 : Memref sig .tc .vmem S1x1x768x768 .f32) (harg3 : arg3.IsWhole) (arg4 : Memref sig .tc .vmem S1x1x768x768 .f32) (harg4 : arg4.IsWhole) (arg5 : Memref sig .tc .vmem S772x772 .f32) (harg5 : arg5.IsWhole)
    (x0 x1 : Vec Ideal S1x1x768x768 .f32) :
    out0_A_3 (F := Ideal) c i arg1 harg1 arg2 harg2 arg3 harg3 arg4 harg4 arg5 harg5 x0 x1
      = shapeCast S1x1x768x768
          (sitofp (F := Ideal) .f32 (extui 32 (cmpf (F := Ideal) .oge (acc x0 x1) (broadcast S768x768 (Scalar.ofBits (F := Ideal) .f32 0x3F000000#32))) natLt_1_32))
          shapeCasts_S768x768_S1x1x768x768 := by
  unfold out0_A_3
  rw [View.read_writes_eq_canon _ _ _ (cover0_A_3 c i arg1 harg1 arg2 harg2 arg3 harg3 arg4 harg4 arg5 harg5 x0 x1)]
  unfold kernelRun0_A
  dsimp only
  rw [View.canon_unit_zero hz4]
  sl_unfold_run_names
  simp only [View.readCov_eq_canon', View.readAt_eq_ld, harg1.read_unread, harg2.read_unread,
    View.ld_unit_zero (S := S1x1x768x768) hz4]
  rfl

/-- A bit widened to 32 bits and read as a signed integer is the bit. -/
theorem toInt_setWidth_bit (b : BitVec 1) : (((b.setWidth 32).toInt : ℝ) : EReal) = ((b.toNat : ℝ) : EReal) := by
  have h : (b.setWidth 32).toInt = (b.toNat : ℤ) := by
    rcases BitVec.eq_zero_or_eq_one b with h | h <;> subst h <;> decide
  rw [h, Int.cast_natCast]

/-- The comparison with one half, widened and converted, is the specification's threshold. -/
theorem mask_bit (v : EReal) :
    FloatOps.sitofp (F := Ideal) .f32
        ((FloatOps.cmpf (F := Ideal) (φ := .f32) .oge v (Scalar.ofBits (F := Ideal) .f32 0x3F000000#32)).setWidth 32)
      = Cert.Spec.maskAt v := by
  unfold Cert.Spec.maskAt
  exact toInt_setWidth_bit _

/-- THE FIRST RESULT AT A PIXEL of the point's block. -/
theorem out2_pixel (c : Dev nD) (i : grid0.Coords) (arg1 : Memref sig .tc .vmem S1x1x768x768 .f32) (harg1 : arg1.IsWhole) (arg2 : Memref sig .tc .vmem S1x1x768x768 .f32) (harg2 : arg2.IsWhole) (arg3 : Memref sig .tc .vmem S1x1x768x768 .f32) (harg3 : arg3.IsWhole) (arg4 : Memref sig .tc .vmem S1x1x768x768 .f32) (harg4 : arg4.IsWhole) (arg5 : Memref sig .tc .vmem S772x772 .f32) (harg5 : arg5.IsWhole)
    (x0 x1 : Vec Ideal S1x1x768x768 .f32) (r q : Fin 768) :
    out0_A_2 (F := Ideal) c i arg1 harg1 arg2 harg2 arg3 harg3 arg4 harg4 arg5 harg5 x0 x1 (ix4 0 0 r q)
      = Cert.Spec.convAt (blkImg x0) (Cert.Spec.den (x1 (ix4 0 0 r q))) r.val q.val := by
  rw [out2_eq, cast_unblock_apply, acc_pixel]

/-- THE SECOND RESULT AT A PIXEL of the point's block. -/
theorem out3_pixel (c : Dev nD) (i : grid0.Coords) (arg1 : Memref sig .tc .vmem S1x1x768x768 .f32) (harg1 : arg1.IsWhole) (arg2 : Memref sig .tc .vmem S1x1x768x768 .f32) (harg2 : arg2.IsWhole) (arg3 : Memref sig .tc .vmem S1x1x768x768 .f32) (harg3 : arg3.IsWhole) (arg4 : Memref sig .tc .vmem S1x1x768x768 .f32) (harg4 : arg4.IsWhole) (arg5 : Memref sig .tc .vmem S772x772 .f32) (harg5 : arg5.IsWhole)
    (x0 x1 : Vec Ideal S1x1x768x768 .f32) (r q : Fin 768) :
    out0_A_3 (F := Ideal) c i arg1 harg1 arg2 harg2 arg3 harg3 arg4 harg4 arg5 harg5 x0 x1 (ix4 0 0 r q)
      = Cert.Spec.maskAt (Cert.Spec.convAt (blkImg x0) (Cert.Spec.den (x1 (ix4 0 0 r q))) r.val q.val) := by
  rw [out3_eq, cast_unblock_apply, sitofp_apply, extui_apply, cmpf_apply, broadcast_apply, acc_pixel]
  exact mask_bit _

end Cert.KernelIdeal.Body

end
-- ==== Proof.KernelValue.lean ====
/-
  From the grid points' blocks to the two whole result arrays.

  The grid has four points; at point t every window's block is image t of its array (block index (t, 0, 0, 0),
  blocks of one image: decided over the four points).  So the input blocks the body sees at point t are image t of
  the two argument arrays, what it writes back is image t of the specification's results, and the four blocks
  written back cover the result arrays: after the run each result array IS the specification's function of the
  argument arrays.
-/
import proofs.«144998_j90108413870322_2_alg».proof.Proof.Gen.KernelIdeal.Value
import proofs.«144998_j90108413870322_2_alg».proof.Proof.KernelPieces

set_option maxRecDepth 16384

noncomputable section

namespace Cert.KernelIdeal.Whole

open Cert.KernelIdeal Cert.KernelIdeal.Gen Cert.KernelIdeal.Body Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-- The image a grid point works on. -/
def batch (t : Fin cfg0.N) : Fin 4 := ⟨t.val, Nat.lt_of_lt_of_eq t.isLt (N_0 : cfg0.N = 4)⟩

/-- Every index of a block is (0, 0, r, q). -/
theorem exists_blk (y : S1x1x768x768.Idx) : ∃ (r q : Fin 768), y = ix4 0 0 r q := by
  refine ⟨y 2, y 3, ?_⟩
  funext a
  match a with
  | ⟨0, _⟩ => exact Subsingleton.elim (α := Fin 1) _ _
  | ⟨1, _⟩ => exact Subsingleton.elim (α := Fin 1) _ _
  | ⟨2, _⟩ => rfl
  | ⟨3, _⟩ => rfl

/-! ## The printed index maps, decided over the grid: block (t, 0, 0, 0) at point t, for each window -/

theorem idx_facts0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

theorem idx_facts1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

theorem idx_facts2 : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)

theorem idx_facts3 : ∀ t : Fin cfg0.N, win0_3.index t (0 : Fin 4) = t.val ∧ win0_3.index t (1 : Fin 4) = 0
    ∧ win0_3.index t (2 : Fin 4) = 0 ∧ win0_3.index t (3 : Fin 4) = 0 :=
  (by decide +kernel : ∀ t : Fin grid0.N, _)

/-! ## A block's entry (0, 0, r, q) sits at (t, 0, r, q) of the array -/

theorem emb_blk0 (t : Fin cfg0.N) (r q : Fin 768) :
    ((cfg0.win 0).blk t).view.emb (ix4 0 0 r q) = ix4 (batch t) 0 r q := by
  obtain ⟨e0, e1, e2, e3⟩ := idx_facts0 t
  funext a
  apply Fin.ext
  match a with
  | ⟨0, _⟩ => show win0_0.index t (0 : Fin 4) * 1 + 1 * 0 = t.val; omega
  | ⟨1, _⟩ => show win0_0.index t (1 : Fin 4) * 1 + 1 * 0 = 0; omega
  | ⟨2, _⟩ => show win0_0.index t (2 : Fin 4) * 768 + 1 * r.val = r.val; omega
  | ⟨3, _⟩ => show win0_0.index t (3 : Fin 4) * 768 + 1 * q.val = q.val; omega

theorem emb_blk1 (t : Fin cfg0.N) (r q : Fin 768) :
    ((cfg0.win 1).blk t).view.emb (ix4 0 0 r q) = ix4 (batch t) 0 r q := by
  obtain ⟨e0, e1, e2, e3⟩ := idx_facts1 t
  funext a
  apply Fin.ext
  match a with
  | ⟨0, _⟩ => show win0_1.index t (0 : Fin 4) * 1 + 1 * 0 = t.val; omega
  | ⟨1, _⟩ => show win0_1.index t (1 : Fin 4) * 1 + 1 * 0 = 0; omega
  | ⟨2, _⟩ => show win0_1.index t (2 : Fin 4) * 768 + 1 * r.val = r.val; omega
  | ⟨3, _⟩ => show win0_1.index t (3 : Fin 4) * 768 + 1 * q.val = q.val; omega

theorem emb_blk2 (t : Fin cfg0.N) (r q : Fin 768) :
    ((cfg0.win 2).blk t).view.emb (ix4 0 0 r q) = ix4 (batch t) 0 r q := by
  obtain ⟨e0, e1, e2, e3⟩ := idx_facts2 t
  funext a
  apply Fin.ext
  match a with
  | ⟨0, _⟩ => show win0_2.index t (0 : Fin 4) * 1 + 1 * 0 = t.val; omega
  | ⟨1, _⟩ => show win0_2.index t (1 : Fin 4) * 1 + 1 * 0 = 0; omega
  | ⟨2, _⟩ => show win0_2.index t (2 : Fin 4) * 768 + 1 * r.val = r.val; omega
  | ⟨3, _⟩ => show win0_2.index t (3 : Fin 4) * 768 + 1 * q.val = q.val; omega

theorem emb_blk3 (t : Fin cfg0.N) (r q : Fin 768) :
    ((cfg0.win 3).blk t).view.emb (ix4 0 0 r q) = ix4 (batch t) 0 r q := by
  obtain ⟨e0, e1, e2, e3⟩ := idx_facts3 t
  funext a
  apply Fin.ext
  match a with
  | ⟨0, _⟩ => show win0_3.index t (0 : Fin 4) * 1 + 1 * 0 = t.val; omega
  | ⟨1, _⟩ => show win0_3.index t (1 : Fin 4) * 1 + 1 * 0 = 0; omega
  | ⟨2, _⟩ => show win0_3.index t (2 : Fin 4) * 768 + 1 * r.val = r.val; omega
  | ⟨3, _⟩ => show win0_3.index t (3 : Fin 4) * 768 + 1 * q.val = q.val; omega

/-- The image block the body sees at point t is image t of the first argument, -/
theorem blkImg_iblk (c : Dev nD) (t : Fin cfg0.N) :
    blkImg (iblk m c 0 t) = Cert.Spec.img (V m c main_arg0) (batch t) := by
  funext r q
  show V m c main_arg0 (((cfg0.win 0).blk t).view.emb (ix4 0 0 r q)) = V m c main_arg0 (ix4 (batch t) 0 r q)
  rw [emb_blk0]

/-- and the scale block's entry (r, q) is the second argument's at (t, 0, r, q). -/
theorem iblk1_apply (c : Dev nD) (t : Fin cfg0.N) (r q : Fin 768) :
    iblk m c 1 t (ix4 0 0 r q) = V m c main_arg1 (ix4 (batch t) 0 r q) := by
  show V m c main_arg1 (((cfg0.win 1).blk t).view.emb (ix4 0 0 r q)) = _
  rw [emb_blk1]

/-! ## Output window 2: the windowed sum -/

/-- What point t writes back to output window 2 is block t of `conv` of the argument arrays. -/
theorem flushed2_eq (c : Dev nD) (t : Fin cfg0.N) :
    (dats m 0 c).flushed 2 t
      = ((cfg0.win 2).blk t).view.read (Elt Ideal) (Cert.Spec.conv (V m c main_arg0) (V m c main_arg1)) := by
  rw [Value.flushed2_A]
  show (out0_A_2 c (grid0.coords t) (ms0_0 t) (hs0_0 t) (ms0_1 t) (hs0_1 t) (ms0_2 t) (hs0_2 t) (ms0_3 t) (hs0_3 t) scM0_0
      (Memref.isWhole_whole _) (iblk m c 0 t) (iblk m c 1 t) : S1x1x768x768.Idx → EReal)
    = fun y => Cert.Spec.conv (V m c main_arg0) (V m c main_arg1) (((cfg0.win 2).blk t).view.emb y)
  funext y
  obtain ⟨r, q, rfl⟩ := exists_blk y
  refine (out2_pixel c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) r q).trans ?_
  rw [emb_blk2 t r q, Cert.Spec.conv_ix4, blkImg_iblk m c t, iblk1_apply m c t r q]

/-- An index of the array is in point t's block of window 2 iff each coordinate is in the block's range. -/
theorem mem_blk2 (t : Fin cfg0.N) (i : S4x1x768x768.Idx) :
    i ∈ ((cfg0.win 2).blk t).view.set ↔ ∀ a : Fin 4, win0_2.index t a * S1x1x768x768.size a ≤ (i a).val
      ∧ (i a).val < win0_2.index t a * S1x1x768x768.size a + S1x1x768x768.size a := by
  show i ∈ ((View.whole main_v0_0).slice (win0_2.rect t)).set ↔ _
  rw [View.set_slice_whole, Rect.mem_set_unit]
  exact Iff.rfl

/-- Every index of the array is in the block of the point its image number names. -/
theorem cover2 (i : S4x1x768x768.Idx) :
    ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 768 := (i 2).isLt
  have h3 : (i 3).val < 768 := (i 3).isLt
  have hN : (i 0).val < cfg0.N := Nat.lt_of_lt_of_eq h0 (N_0 : cfg0.N = 4).symm
  refine ⟨⟨(i 0).val, hN⟩, flush0_2 _, ?_⟩
  rw [mem_blk2]
  obtain ⟨e0, e1, e2, e3⟩ := idx_facts2 ⟨(i 0).val, hN⟩
  intro a
  match a with
  | ⟨0, _⟩ =>
    show win0_2.index ⟨(i 0).val, hN⟩ (0 : Fin 4) * 1 ≤ (i 0).val ∧ (i 0).val < win0_2.index ⟨(i 0).val, hN⟩ (0 : Fin 4) * 1 + 1
    rw [e0]; show (i 0).val * 1 ≤ (i 0).val ∧ (i 0).val < (i 0).val * 1 + 1; omega
  | ⟨1, _⟩ =>
    show win0_2.index ⟨(i 0).val, hN⟩ (1 : Fin 4) * 1 ≤ (i 1).val ∧ (i 1).val < win0_2.index ⟨(i 0).val, hN⟩ (1 : Fin 4) * 1 + 1
    rw [e1]; omega
  | ⟨2, _⟩ =>
    show win0_2.index ⟨(i 0).val, hN⟩ (2 : Fin 4) * 768 ≤ (i 2).val ∧ (i 2).val < win0_2.index ⟨(i 0).val, hN⟩ (2 : Fin 4) * 768 + 768
    rw [e2]; omega
  | ⟨3, _⟩ =>
    show win0_2.index ⟨(i 0).val, hN⟩ (3 : Fin 4) * 768 ≤ (i 3).val ∧ (i 3).val < win0_2.index ⟨(i 0).val, hN⟩ (3 : Fin 4) * 768 + 768
    rw [e3]; omega

/-- The array of output window 2 after the run. -/
theorem final2 (c : Dev nD) :
    (dats m 0 c).arrAt 2 cfg0.N = Cert.Spec.conv (m ((c : Thread nD τ).loc main_arg0)) (m ((c : Thread nD τ).loc main_arg1)) :=
  (dats m 0 c).arrAt_eq_of_cover 2 (Cert.Spec.conv (V m c main_arg0) (V m c main_arg1)) (fun t _ => flushed2_eq m c t) cover2

/-! ## Output window 3: the threshold -/

/-- What point t writes back to output window 3 is block t of `mask` of the argument arrays. -/
theorem flushed3_eq (c : Dev nD) (t : Fin cfg0.N) :
    (dats m 0 c).flushed 3 t
      = ((cfg0.win 3).blk t).view.read (Elt Ideal) (Cert.Spec.mask (V m c main_arg0) (V m c main_arg1)) := by
  rw [Value.flushed3_A]
  show (out0_A_3 c (grid0.coords t) (ms0_0 t) (hs0_0 t) (ms0_1 t) (hs0_1 t) (ms0_2 t) (hs0_2 t) (ms0_3 t) (hs0_3 t) scM0_0
      (Memref.isWhole_whole _) (iblk m c 0 t) (iblk m c 1 t) : S1x1x768x768.Idx → EReal)
    = fun y => Cert.Spec.mask (V m c main_arg0) (V m c main_arg1) (((cfg0.win 3).blk t).view.emb y)
  funext y
  obtain ⟨r, q, rfl⟩ := exists_blk y
  refine (out3_pixel c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) r q).trans ?_
  rw [emb_blk3 t r q, Cert.Spec.mask_ix4, blkImg_iblk m c t, iblk1_apply m c t r q]

/-- An index of the array is in point t's block of window 3 iff each coordinate is in the block's range. -/
theorem mem_blk3 (t : Fin cfg0.N) (i : S4x1x768x768.Idx) :
    i ∈ ((cfg0.win 3).blk t).view.set ↔ ∀ a : Fin 4, win0_3.index t a * S1x1x768x768.size a ≤ (i a).val
      ∧ (i a).val < win0_3.index t a * S1x1x768x768.size a + S1x1x768x768.size a := by
  show i ∈ ((View.whole main_v0_1).slice (win0_3.rect t)).set ↔ _
  rw [View.set_slice_whole, Rect.mem_set_unit]
  exact Iff.rfl

/-- Every index of the array is in the block of the point its image number names. -/
theorem cover3 (i : S4x1x768x768.Idx) :
    ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 768 := (i 2).isLt
  have h3 : (i 3).val < 768 := (i 3).isLt
  have hN : (i 0).val < cfg0.N := Nat.lt_of_lt_of_eq h0 (N_0 : cfg0.N = 4).symm
  refine ⟨⟨(i 0).val, hN⟩, flush0_3 _, ?_⟩
  rw [mem_blk3]
  obtain ⟨e0, e1, e2, e3⟩ := idx_facts3 ⟨(i 0).val, hN⟩
  intro a
  match a with
  | ⟨0, _⟩ =>
    show win0_3.index ⟨(i 0).val, hN⟩ (0 : Fin 4) * 1 ≤ (i 0).val ∧ (i 0).val < win0_3.index ⟨(i 0).val, hN⟩ (0 : Fin 4) * 1 + 1
    rw [e0]; show (i 0).val * 1 ≤ (i 0).val ∧ (i 0).val < (i 0).val * 1 + 1; omega
  | ⟨1, _⟩ =>
    show win0_3.index ⟨(i 0).val, hN⟩ (1 : Fin 4) * 1 ≤ (i 1).val ∧ (i 1).val < win0_3.index ⟨(i 0).val, hN⟩ (1 : Fin 4) * 1 + 1
    rw [e1]; omega
  | ⟨2, _⟩ =>
    show win0_3.index ⟨(i 0).val, hN⟩ (2 : Fin 4) * 768 ≤ (i 2).val ∧ (i 2).val < win0_3.index ⟨(i 0).val, hN⟩ (2 : Fin 4) * 768 + 768
    rw [e2]; omega
  | ⟨3, _⟩ =>
    show win0_3.index ⟨(i 0).val, hN⟩ (3 : Fin 4) * 768 ≤ (i 3).val ∧ (i 3).val < win0_3.index ⟨(i 0).val, hN⟩ (3 : Fin 4) * 768 + 768
    rw [e3]; omega

/-- The array of output window 3 after the run. -/
theorem final3 (c : Dev nD) :
    (dats m 0 c).arrAt 3 cfg0.N = Cert.Spec.mask (m ((c : Thread nD τ).loc main_arg0)) (m ((c : Thread nD τ).loc main_arg1)) :=
  (dats m 0 c).arrAt_eq_of_cover 3 (Cert.Spec.mask (V m c main_arg0) (V m c main_arg1)) (fun t _ => flushed3_eq m c t) cover3

/-! ## The run, read -/

/-- Every weakly fair execution of the kernel's program ends with the two result arrays at the specification's
    functions of the argument arrays, and the arguments unchanged. -/
theorem run : θ_run defs (onTc (τ := τ) (main (F := Ideal))) ⟨m, fun _ => 0, ρ⟩ fun r => ∀ c : Dev nD,
      r.2.mem ((c : Thread nD τ).loc main_v0_0) = Cert.Spec.conv (m ((c : Thread nD τ).loc main_arg0)) (m ((c : Thread nD τ).loc main_arg1))
      ∧ r.2.mem ((c : Thread nD τ).loc main_v0_1) = Cert.Spec.mask (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (Value.run_blocks m ρ)

end Cert.KernelIdeal.Whole

end
-- ==== Proof.RefRun.lean ====
/-
  The reference's @main as ONE straight line of its host operations, the two outlined functions' operations
  written at their call sites over the calls' buffer records, and its run: every weakly fair execution
  terminates with each buffer at the fold of the operations over the launch contents.
-/
import proofs.«144998_j90108413870322_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 81 operations in order: the table of squared distances; max · 0 (three operations: the zero, its
    broadcast, the maximum); the integer zero, its conversion and the frame of two zeros on each side of the last
    two axes; the 25 shifted windows of the framed array, each given a unit axis; their stack along that axis
    (16, then 9, then the two together); the weights exp (−ρ² / (2 s² + ε)); the product, its sum along the
    stacked axis, and the comparison with one half as a number. -/
abbrev ops : List (HloOp τ sig (Elt F)) :=
  [ StableHlo.nullary main_cst (fun i => FloatOps.ofBits .f32 (lit0 (S25.rowMajor i))),
    StableHlo.TRef.nullary main_call0.cst (constant S_ .f32 0x00000000#32),
    StableHlo.TRef.unary main_call0.cst main_call0.v0 (broadcastInDim S4x1x768x768 ![] bcast_S_S4x1x768x768),
    StableHlo.TRef.binary (.of main_arg0 : StableHlo.TRef sig ⟨S4x1x768x768, .f32⟩) main_call0.v0 main_call0.v1 maximumf,
    StableHlo.nullary main_c (constantI S_ 32 0#32),
    StableHlo.TRef.unary (.of main_c : StableHlo.TRef sig ⟨S_, .i32⟩) main_call1.v0 (sitofp .f32),
    StableHlo.TRef.binary (.of main_v0 : StableHlo.TRef sig ⟨S4x1x768x768, .f32⟩) main_call1.v0 main_call1.v1 (fun x v => pad S4x1x772x772 ![0, 0, 2, 2] ![0, 0, 2, 2] ![0, 0, 0, 0] x v pads_S4x1x768x768_S4x1x772x772_000_000_220_220 h_S_),
    StableHlo.unary main_v1 main_v2 ((extractStridedSlice S4x1x768x768 ![0, 0, 0, 0] · slices_S4x1x772x772_S4x1x768x768_0_0_0_0) : (⟨S4x1x772x772, .f32⟩ : BufTy).Contents (Elt F) → (⟨S4x1x768x768, .f32⟩ : BufTy).Contents (Elt F)),
    StableHlo.unary main_v1 main_v3 ((extractStridedSlice S4x1x768x768 ![0, 0, 0, 1] · slices_S4x1x772x772_S4x1x768x768_0_0_0_1) : (⟨S4x1x772x772, .f32⟩ : BufTy).Contents (Elt F) → (⟨S4x1x768x768, .f32⟩ : BufTy).Contents (Elt F)),
    StableHlo.unary main_v1 main_v4 ((extractStridedSlice S4x1x768x768 ![0, 0, 0, 2] · slices_S4x1x772x772_S4x1x768x768_0_0_0_2) : (⟨S4x1x772x772, .f32⟩ : BufTy).Contents (Elt F) → (⟨S4x1x768x768, .f32⟩ : BufTy).Contents (Elt F)),
    StableHlo.unary main_v1 main_v5 ((extractStridedSlice S4x1x768x768 ![0, 0, 0, 3] · slices_S4x1x772x772_S4x1x768x768_0_0_0_3) : (⟨S4x1x772x772, .f32⟩ : BufTy).Contents (Elt F) → (⟨S4x1x768x768, .f32⟩ : BufTy).Contents (Elt F)),
    StableHlo.unary main_v1 main_v6 ((extractStridedSlice S4x1x768x768 ![0, 0, 0, 4] · slices_S4x1x772x772_S4x1x768x768_0_0_0_4) : (⟨S4x1x772x772, .f32⟩ : BufTy).Contents (Elt F) → (⟨S4x1x768x768, .f32⟩ : BufTy).Contents (Elt F)),
    StableHlo.unary main_v1 main_v7 ((extractStridedSlice S4x1x768x768 ![0, 0, 1, 0] · slices_S4x1x772x772_S4x1x768x768_0_0_1_0) : (⟨S4x1x772x772, .f32⟩ : BufTy).Contents (Elt F) → (⟨S4x1x768x768, .f32⟩ : BufTy).Contents (Elt F)),
    StableHlo.unary main_v1 main_v8 ((extractStridedSlice S4x1x768x768 ![0, 0, 1, 1] · slices_S4x1x772x772_S4x1x768x768_0_0_1_1) : (⟨S4x1x772x772, .f32⟩ : BufTy).Contents (Elt F) → (⟨S4x1x768x768, .f32⟩ : BufTy).Contents (Elt F)),
    StableHlo.unary main_v1 main_v9 ((extractStridedSlice S4x1x768x768 ![0, 0, 1, 2] · slices_S4x1x772x772_S4x1x768x768_0_0_1_2) : (⟨S4x1x772x772, .f32⟩ : BufTy).Contents (Elt F) → (⟨S4x1x768x768, .f32⟩ : BufTy).Contents (Elt F)),
    StableHlo.unary main_v1 main_v10 ((extractStridedSlice S4x1x768x768 ![0, 0, 1, 3] · slices_S4x1x772x772_S4x1x768x768_0_0_1_3) : (⟨S4x1x772x772, .f32⟩ : BufTy).Contents (Elt F) → (⟨S4x1x768x768, .f32⟩ : BufTy).Contents (Elt F)),
    StableHlo.unary main_v1 main_v11 ((extractStridedSlice S4x1x768x768 ![0, 0, 1, 4] · slices_S4x1x772x772_S4x1x768x768_0_0_1_4) : (⟨S4x1x772x772, .f32⟩ : BufTy).Contents (Elt F) → (⟨S4x1x768x768, .f32⟩ : BufTy).Contents (Elt F)),
    StableHlo.unary main_v1 main_v12 ((extractStridedSlice S4x1x768x768 ![0, 0, 2, 0] · slices_S4x1x772x772_S4x1x768x768_0_0_2_0) : (⟨S4x1x772x772, .f32⟩ : BufTy).Contents (Elt F) → (⟨S4x1x768x768, .f32⟩ : BufTy).Contents (Elt F)),
    StableHlo.unary main_v1 main_v13 ((extractStridedSlice S4x1x768x768 ![0, 0, 2, 1] · slices_S4x1x772x772_S4x1x768x768_0_0_2_1) : (⟨S4x1x772x772, .f32⟩ : BufTy).Contents (Elt F) → (⟨S4x1x768x768, .f32⟩ : BufTy).Contents (Elt F)),
    StableHlo.unary main_v1 main_v14 ((extractStridedSlice S4x1x768x768 ![0, 0, 2, 2] · slices_S4x1x772x772_S4x1x768x768_0_0_2_2) : (⟨S4x1x772x772, .f32⟩ : BufTy).Contents (Elt F) → (⟨S4x1x768x768, .f32⟩ : BufTy).Contents (Elt F)),
    StableHlo.unary main_v1 main_v15 ((extractStridedSlice S4x1x768x768 ![0, 0, 2, 3] · slices_S4x1x772x772_S4x1x768x768_0_0_2_3) : (⟨S4x1x772x772, .f32⟩ : BufTy).Contents (Elt F) → (⟨S4x1x768x768, .f32⟩ : BufTy).Contents (Elt F)),
    StableHlo.unary main_v1 main_v16 ((extractStridedSlice S4x1x768x768 ![0, 0, 2, 4] · slices_S4x1x772x772_S4x1x768x768_0_0_2_4) : (⟨S4x1x772x772, .f32⟩ : BufTy).Contents (Elt F) → (⟨S4x1x768x768, .f32⟩ : BufTy).Contents (Elt F)),
    StableHlo.unary main_v1 main_v17 ((extractStridedSlice S4x1x768x768 ![0, 0, 3, 0] · slices_S4x1x772x772_S4x1x768x768_0_0_3_0) : (⟨S4x1x772x772, .f32⟩ : BufTy).Contents (Elt F) → (⟨S4x1x768x768, .f32⟩ : BufTy).Contents (Elt F)),
    StableHlo.unary main_v1 main_v18 ((extractStridedSlice S4x1x768x768 ![0, 0, 3, 1] · slices_S4x1x772x772_S4x1x768x768_0_0_3_1) : (⟨S4x1x772x772, .f32⟩ : BufTy).Contents (Elt F) → (⟨S4x1x768x768, .f32⟩ : BufTy).Contents (Elt F)),
    StableHlo.unary main_v1 main_v19 ((extractStridedSlice S4x1x768x768 ![0, 0, 3, 2] · slices_S4x1x772x772_S4x1x768x768_0_0_3_2) : (⟨S4x1x772x772, .f32⟩ : BufTy).Contents (Elt F) → (⟨S4x1x768x768, .f32⟩ : BufTy).Contents (Elt F)),
    StableHlo.unary main_v1 main_v20 ((extractStridedSlice S4x1x768x768 ![0, 0, 3, 3] · slices_S4x1x772x772_S4x1x768x768_0_0_3_3) : (⟨S4x1x772x772, .f32⟩ : BufTy).Contents (Elt F) → (⟨S4x1x768x768, .f32⟩ : BufTy).Contents (Elt F)),
    StableHlo.unary main_v1 main_v21 ((extractStridedSlice S4x1x768x768 ![0, 0, 3, 4] · slices_S4x1x772x772_S4x1x768x768_0_0_3_4) : (⟨S4x1x772x772, .f32⟩ : BufTy).Contents (Elt F) → (⟨S4x1x768x768, .f32⟩ : BufTy).Contents (Elt F)),
    StableHlo.unary main_v1 main_v22 ((extractStridedSlice S4x1x768x768 ![0, 0, 4, 0] · slices_S4x1x772x772_S4x1x768x768_0_0_4_0) : (⟨S4x1x772x772, .f32⟩ : BufTy).Contents (Elt F) → (⟨S4x1x768x768, .f32⟩ : BufTy).Contents (Elt F)),
    StableHlo.unary main_v1 main_v23 ((extractStridedSlice S4x1x768x768 ![0, 0, 4, 1] · slices_S4x1x772x772_S4x1x768x768_0_0_4_1) : (⟨S4x1x772x772, .f32⟩ : BufTy).Contents (Elt F) → (⟨S4x1x768x768, .f32⟩ : BufTy).Contents (Elt F)),
    StableHlo.unary main_v1 main_v24 ((extractStridedSlice S4x1x768x768 ![0, 0, 4, 2] · slices_S4x1x772x772_S4x1x768x768_0_0_4_2) : (⟨S4x1x772x772, .f32⟩ : BufTy).Contents (Elt F) → (⟨S4x1x768x768, .f32⟩ : BufTy).Contents (Elt F)),
    StableHlo.unary main_v1 main_v25 ((extractStridedSlice S4x1x768x768 ![0, 0, 4, 3] · slices_S4x1x772x772_S4x1x768x768_0_0_4_3) : (⟨S4x1x772x772, .f32⟩ : BufTy).Contents (Elt F) → (⟨S4x1x768x768, .f32⟩ : BufTy).Contents (Elt F)),
    StableHlo.unary main_v1 main_v26 ((extractStridedSlice S4x1x768x768 ![0, 0, 4, 4] · slices_S4x1x772x772_S4x1x768x768_0_0_4_4) : (⟨S4x1x772x772, .f32⟩ : BufTy).Contents (Elt F) → (⟨S4x1x768x768, .f32⟩ : BufTy).Contents (Elt F)),
    StableHlo.unary main_v2 main_v27 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v3 main_v28 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v4 main_v29 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v5 main_v30 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v6 main_v31 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v7 main_v32 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v8 main_v33 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v9 main_v34 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v10 main_v35 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v11 main_v36 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v12 main_v37 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v13 main_v38 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v14 main_v39 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v15 main_v40 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v16 main_v41 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v17 main_v42 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v18 main_v43 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v19 main_v44 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v20 main_v45 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v21 main_v46 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v22 main_v47 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v23 main_v48 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v24 main_v49 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v25 main_v50 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.unary main_v26 main_v51 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.nary ![main_v27, main_v28, main_v29, main_v30, main_v31, main_v32, main_v33, main_v34, main_v35, main_v36, main_v37, main_v38, main_v39, main_v40, main_v41, main_v42] main_v52 (fun u => concatenate S4x1x16x768x768 2 [⟨S4x1x1x768x768, u 0⟩, ⟨S4x1x1x768x768, u 1⟩, ⟨S4x1x1x768x768, u 2⟩, ⟨S4x1x1x768x768, u 3⟩, ⟨S4x1x1x768x768, u 4⟩, ⟨S4x1x1x768x768, u 5⟩, ⟨S4x1x1x768x768, u 6⟩, ⟨S4x1x1x768x768, u 7⟩, ⟨S4x1x1x768x768, u 8⟩, ⟨S4x1x1x768x768, u 9⟩, ⟨S4x1x1x768x768, u 10⟩, ⟨S4x1x1x768x768, u 11⟩, ⟨S4x1x1x768x768, u 12⟩, ⟨S4x1x1x768x768, u 13⟩, ⟨S4x1x1x768x768, u 14⟩, ⟨S4x1x1x768x768, u 15⟩] concatenates_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x16x768x768_d2),
    StableHlo.nary ![main_v43, main_v44, main_v45, main_v46, main_v47, main_v48, main_v49, main_v50, main_v51] main_v53 (fun u => concatenate S4x1x9x768x768 2 [⟨S4x1x1x768x768, u 0⟩, ⟨S4x1x1x768x768, u 1⟩, ⟨S4x1x1x768x768, u 2⟩, ⟨S4x1x1x768x768, u 3⟩, ⟨S4x1x1x768x768, u 4⟩, ⟨S4x1x1x768x768, u 5⟩, ⟨S4x1x1x768x768, u 6⟩, ⟨S4x1x1x768x768, u 7⟩, ⟨S4x1x1x768x768, u 8⟩] concatenates_S4x1x1x768x768_S4x1x1x768x768_S4x1x1x768x768_S4x1x1x768x768_S4x1x1x768x768_S4x1x1x768x768_S4x1x1x768x768_S4x1x1x768x768_S4x1x1x768x768_S4x1x9x768x768_d2),
    StableHlo.binary main_v52 main_v53 main_v54 ((fun a b => concatenate S4x1x25x768x768 2 [⟨S4x1x16x768x768, a⟩, ⟨S4x1x9x768x768, b⟩] concatenates_S4x1x16x768x768_S4x1x9x768x768_S4x1x25x768x768_d2) : (⟨S4x1x16x768x768, .f32⟩ : BufTy).Contents (Elt F) → (⟨S4x1x9x768x768, .f32⟩ : BufTy).Contents (Elt F) → (⟨S4x1x25x768x768, .f32⟩ : BufTy).Contents (Elt F)),
    StableHlo.unary main_cst main_v55 (broadcastInDim S1x1x25x1x1 ![2] bcast_S25_S1x1x25x1x1_2 : (⟨S25, .f32⟩ : BufTy).Contents (Elt F) → (⟨S1x1x25x1x1, .f32⟩ : BufTy).Contents (Elt F)),
    StableHlo.unary main_v55 main_v56 (Host.negf : (⟨S1x1x25x1x1, .f32⟩ : BufTy).Contents (Elt F) → (⟨S1x1x25x1x1, .f32⟩ : BufTy).Contents (Elt F)),
    StableHlo.binary main_arg1 main_arg1 main_v57 (mulf : (⟨S4x1x768x768, .f32⟩ : BufTy).Contents (Elt F) → (⟨S4x1x768x768, .f32⟩ : BufTy).Contents (Elt F) → (⟨S4x1x768x768, .f32⟩ : BufTy).Contents (Elt F)),
    StableHlo.unary main_v57 main_v58 (broadcastInDim S4x1x1x768x768 ![0, 1, 3, 4] bcast_S4x1x768x768_S4x1x1x768x768_0_1_3_4 : (⟨S4x1x768x768, .f32⟩ : BufTy).Contents (Elt F) → (⟨S4x1x1x768x768, .f32⟩ : BufTy).Contents (Elt F)),
    StableHlo.nullary main_cst_0 (constant S_ .f32 0x40000000#32),
    StableHlo.unary main_cst_0 main_v59 (broadcastInDim S4x1x1x768x768 ![] bcast_S_S4x1x1x768x768 : (⟨S_, .f32⟩ : BufTy).Contents (Elt F) → (⟨S4x1x1x768x768, .f32⟩ : BufTy).Contents (Elt F)),
    StableHlo.binary main_v59 main_v58 main_v60 (mulf : (⟨S4x1x1x768x768, .f32⟩ : BufTy).Contents (Elt F) → (⟨S4x1x1x768x768, .f32⟩ : BufTy).Contents (Elt F) → (⟨S4x1x1x768x768, .f32⟩ : BufTy).Contents (Elt F)),
    StableHlo.nullary main_cst_1 (constant S_ .f32 0x358637BD#32),
    StableHlo.unary main_cst_1 main_v61 (broadcastInDim S4x1x1x768x768 ![] bcast_S_S4x1x1x768x768 : (⟨S_, .f32⟩ : BufTy).Contents (Elt F) → (⟨S4x1x1x768x768, .f32⟩ : BufTy).Contents (Elt F)),
    StableHlo.binary main_v60 main_v61 main_v62 (addf : (⟨S4x1x1x768x768, .f32⟩ : BufTy).Contents (Elt F) → (⟨S4x1x1x768x768, .f32⟩ : BufTy).Contents (Elt F) → (⟨S4x1x1x768x768, .f32⟩ : BufTy).Contents (Elt F)),
    StableHlo.unary main_v56 main_v63 (broadcastInDim S4x1x25x768x768 ![0, 1, 2, 3, 4] bcast_S1x1x25x1x1_S4x1x25x768x768_0_1_2_3_4 : (⟨S1x1x25x1x1, .f32⟩ : BufTy).Contents (Elt F) → (⟨S4x1x25x768x768, .f32⟩ : BufTy).Contents (Elt F)),
    StableHlo.unary main_v62 main_v64 (broadcastInDim S4x1x25x768x768 ![0, 1, 2, 3, 4] bcast_S4x1x1x768x768_S4x1x25x768x768_0_1_2_3_4 : (⟨S4x1x1x768x768, .f32⟩ : BufTy).Contents (Elt F) → (⟨S4x1x25x768x768, .f32⟩ : BufTy).Contents (Elt F)),
    StableHlo.binary main_v63 main_v64 main_v65 (Host.divf : (⟨S4x1x25x768x768, .f32⟩ : BufTy).Contents (Elt F) → (⟨S4x1x25x768x768, .f32⟩ : BufTy).Contents (Elt F) → (⟨S4x1x25x768x768, .f32⟩ : BufTy).Contents (Elt F)),
    StableHlo.unary main_v65 main_v66 (Host.exp : (⟨S4x1x25x768x768, .f32⟩ : BufTy).Contents (Elt F) → (⟨S4x1x25x768x768, .f32⟩ : BufTy).Contents (Elt F)),
    StableHlo.binary main_v54 main_v66 main_v67 (mulf : (⟨S4x1x25x768x768, .f32⟩ : BufTy).Contents (Elt F) → (⟨S4x1x25x768x768, .f32⟩ : BufTy).Contents (Elt F) → (⟨S4x1x25x768x768, .f32⟩ : BufTy).Contents (Elt F)),
    StableHlo.nullary main_cst_2 (constant S_ .f32 0x00000000#32),
    StableHlo.binary main_v67 main_cst_2 main_v68 ((fun x v => Host.reduceAdd x v reducesTo_S4x1x25x768x768_S4x1x768x768_d2 h_S_) : (⟨S4x1x25x768x768, .f32⟩ : BufTy).Contents (Elt F) → (⟨S_, .f32⟩ : BufTy).Contents (Elt F) → (⟨S4x1x768x768, .f32⟩ : BufTy).Contents (Elt F)),
    StableHlo.nullary main_cst_3 (constant S_ .f32 0x3F000000#32),
    StableHlo.unary main_cst_3 main_v69 (broadcastInDim S4x1x768x768 ![] bcast_S_S4x1x768x768 : (⟨S_, .f32⟩ : BufTy).Contents (Elt F) → (⟨S4x1x768x768, .f32⟩ : BufTy).Contents (Elt F)),
    StableHlo.binary main_v68 main_v69 main_v70 (cmpf .oge : (⟨S4x1x768x768, .f32⟩ : BufTy).Contents (Elt F) → (⟨S4x1x768x768, .f32⟩ : BufTy).Contents (Elt F) → (⟨S4x1x768x768, .i1⟩ : BufTy).Contents (Elt F)),
    StableHlo.unary main_v70 main_v71 (uitofp .f32 : (⟨S4x1x768x768, .i1⟩ : BufTy).Contents (Elt F) → (⟨S4x1x768x768, .f32⟩ : BufTy).Contents (Elt F)) ]

-- eighty-one binds re-associated: the rewrite under the chain recurses once per statement
set_option maxRecDepth 4096 in
set_option maxHeartbeats 4000000 in
/-- @main is that straight line: the two windows in order, the outlined functions' definitions unfolded at their
    calls, and sequencing re-associated. -/
theorem main_eq (c : Dev nD) : main (F := F) c = seq ops := by
  simp only [main, main_part0, main_part1, fn_relu.body, fn_pad.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., nary_bufs_sub .., nary_bufs_sub .., binary_bufs_sub ..,
    unary_bufs_sub .., unary_bufs_sub .., binary_bufs_sub .., unary_bufs_sub .., nullary_bufs_sub .., unary_bufs_sub ..,
    binary_bufs_sub .., nullary_bufs_sub .., unary_bufs_sub .., binary_bufs_sub .., unary_bufs_sub .., unary_bufs_sub ..,
    binary_bufs_sub .., unary_bufs_sub .., binary_bufs_sub .., nullary_bufs_sub .., binary_bufs_sub .., nullary_bufs_sub ..,
    unary_bufs_sub .., binary_bufs_sub .., unary_bufs_sub ..⟩

/-- From any memory with zero counters every weakly fair execution of @main terminates, and every buffer ends at
    the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference's two results as composed terms of its two arguments, for any float instance: the operations of
  @main composed in order, with the framed array, the stack of the 25 shifted windows and the array of weights named.
-/
import proofs.«144998_j90108413870322_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- max x 0, elementwise. -/
def relu (x : FVec F S4x1x768x768 .f32) : FVec F S4x1x768x768 .f32 :=
  maximumf x (broadcastInDim S4x1x768x768 ![] bcast_S_S4x1x768x768 (constant S_ .f32 0x00000000#32))

/-- max x 0 framed by two entries of the integer zero's conversion on each side of the last two axes. -/
def framed (x : FVec F S4x1x768x768 .f32) : FVec F S4x1x772x772 .f32 :=
  pad S4x1x772x772 ![0, 0, 2, 2] ![0, 0, 2, 2] ![0, 0, 0, 0] (relu x) (sitofp .f32 (constantI S_ 32 0#32))
    pads_S4x1x768x768_S4x1x772x772_000_000_220_220 h_S_

/-- The 768 × 768 window of the framed array at the offsets `off`, with a unit axis inserted at position 2. -/
def window (xp : FVec F S4x1x772x772 .f32) (off : Fin 4 → Nat) (h : S4x1x772x772.Slices off S4x1x768x768) :
    FVec F S4x1x1x768x768 .f32 :=
  broadcastInDim S4x1x1x768x768 ![0, 1, 3, 4] bcast_S4x1x768x768_S4x1x1x768x768_0_1_3_4
    (extractStridedSlice S4x1x768x768 off xp h)

/-- The windows at the offsets (0,0) … (3,0), in row-major order of (dy, dx), stacked along axis 2. -/
def stackA (xp : FVec F S4x1x772x772 .f32) : FVec F S4x1x16x768x768 .f32 :=
  concatenate S4x1x16x768x768 2
    [ ⟨S4x1x1x768x768, window xp ![0, 0, 0, 0] slices_S4x1x772x772_S4x1x768x768_0_0_0_0⟩,
      ⟨S4x1x1x768x768, window xp ![0, 0, 0, 1] slices_S4x1x772x772_S4x1x768x768_0_0_0_1⟩,
      ⟨S4x1x1x768x768, window xp ![0, 0, 0, 2] slices_S4x1x772x772_S4x1x768x768_0_0_0_2⟩,
      ⟨S4x1x1x768x768, window xp ![0, 0, 0, 3] slices_S4x1x772x772_S4x1x768x768_0_0_0_3⟩,
      ⟨S4x1x1x768x768, window xp ![0, 0, 0, 4] slices_S4x1x772x772_S4x1x768x768_0_0_0_4⟩,
      ⟨S4x1x1x768x768, window xp ![0, 0, 1, 0] slices_S4x1x772x772_S4x1x768x768_0_0_1_0⟩,
      ⟨S4x1x1x768x768, window xp ![0, 0, 1, 1] slices_S4x1x772x772_S4x1x768x768_0_0_1_1⟩,
      ⟨S4x1x1x768x768, window xp ![0, 0, 1, 2] slices_S4x1x772x772_S4x1x768x768_0_0_1_2⟩,
      ⟨S4x1x1x768x768, window xp ![0, 0, 1, 3] slices_S4x1x772x772_S4x1x768x768_0_0_1_3⟩,
      ⟨S4x1x1x768x768, window xp ![0, 0, 1, 4] slices_S4x1x772x772_S4x1x768x768_0_0_1_4⟩,
      ⟨S4x1x1x768x768, window xp ![0, 0, 2, 0] slices_S4x1x772x772_S4x1x768x768_0_0_2_0⟩,
      ⟨S4x1x1x768x768, window xp ![0, 0, 2, 1] slices_S4x1x772x772_S4x1x768x768_0_0_2_1⟩,
      ⟨S4x1x1x768x768, window xp ![0, 0, 2, 2] slices_S4x1x772x772_S4x1x768x768_0_0_2_2⟩,
      ⟨S4x1x1x768x768, window xp ![0, 0, 2, 3] slices_S4x1x772x772_S4x1x768x768_0_0_2_3⟩,
      ⟨S4x1x1x768x768, window xp ![0, 0, 2, 4] slices_S4x1x772x772_S4x1x768x768_0_0_2_4⟩,
      ⟨S4x1x1x768x768, window xp ![0, 0, 3, 0] slices_S4x1x772x772_S4x1x768x768_0_0_3_0⟩ ]
    concatenates_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x16x768x768_d2

/-- The windows at the offsets (3,1) … (4,4), stacked along axis 2. -/
def stackB (xp : FVec F S4x1x772x772 .f32) : FVec F S4x1x9x768x768 .f32 :=
  concatenate S4x1x9x768x768 2
    [ ⟨S4x1x1x768x768, window xp ![0, 0, 3, 1] slices_S4x1x772x772_S4x1x768x768_0_0_3_1⟩,
      ⟨S4x1x1x768x768, window xp ![0, 0, 3, 2] slices_S4x1x772x772_S4x1x768x768_0_0_3_2⟩,
      ⟨S4x1x1x768x768, window xp ![0, 0, 3, 3] slices_S4x1x772x772_S4x1x768x768_0_0_3_3⟩,
      ⟨S4x1x1x768x768, window xp ![0, 0, 3, 4] slices_S4x1x772x772_S4x1x768x768_0_0_3_4⟩,
      ⟨S4x1x1x768x768, window xp ![0, 0, 4, 0] slices_S4x1x772x772_S4x1x768x768_0_0_4_0⟩,
      ⟨S4x1x1x768x768, window xp ![0, 0, 4, 1] slices_S4x1x772x772_S4x1x768x768_0_0_4_1⟩,
      ⟨S4x1x1x768x768, window xp ![0, 0, 4, 2] slices_S4x1x772x772_S4x1x768x768_0_0_4_2⟩,
      ⟨S4x1x1x768x768, window xp ![0, 0, 4, 3] slices_S4x1x772x772_S4x1x768x768_0_0_4_3⟩,
      ⟨S4x1x1x768x768, window xp ![0, 0, 4, 4] slices_S4x1x772x772_S4x1x768x768_0_0_4_4⟩ ]
    concatenates_S4x1x1x768x768_S4x1x1x768x768_S4x1x1x768x768_S4x1x1x768x768_S4x1x1x768x768_S4x1x1x768x768_S4x1x1x768x768_S4x1x1x768x768_S4x1x1x768x768_S4x1x9x768x768_d2

/-- All 25 windows along axis 2: tap k = 5·dy + dx is the window at the offsets (dy, dx). -/
def stack (xp : FVec F S4x1x772x772 .f32) : FVec F S4x1x25x768x768 .f32 :=
  concatenate S4x1x25x768x768 2 [⟨S4x1x16x768x768, stackA xp⟩, ⟨S4x1x9x768x768, stackB xp⟩]
    concatenates_S4x1x16x768x768_S4x1x9x768x768_S4x1x25x768x768_d2

/-- The table of squared distances, one per tap. -/
def table : FVec F S25 .f32 := fun i => FloatOps.ofBits .f32 (lit0 (S25.rowMajor i))

/-- 2 s² + ε with a unit axis inserted at position 2. -/
def denom (s : FVec F S4x1x768x768 .f32) : FVec F S4x1x1x768x768 .f32 :=
  addf
    (mulf (broadcastInDim S4x1x1x768x768 ![] bcast_S_S4x1x1x768x768 (constant S_ .f32 0x40000000#32))
      (broadcastInDim S4x1x1x768x768 ![0, 1, 3, 4] bcast_S4x1x768x768_S4x1x1x768x768_0_1_3_4 (mulf s s)))
    (broadcastInDim S4x1x1x768x768 ![] bcast_S_S4x1x1x768x768 (constant S_ .f32 0x358637BD#32))

/-- The weights exp (−ρ²ₖ / (2 s² + ε)), tap k along axis 2. -/
def weights (s : FVec F S4x1x768x768 .f32) : FVec F S4x1x25x768x768 .f32 :=
  Host.exp
    (Host.divf
      (broadcastInDim S4x1x25x768x768 ![0, 1, 2, 3, 4] bcast_S1x1x25x1x1_S4x1x25x768x768_0_1_2_3_4
        (Host.negf (broadcastInDim S1x1x25x1x1 ![2] bcast_S25_S1x1x25x1x1_2 table)))
      (broadcastInDim S4x1x25x768x768 ![0, 1, 2, 3, 4] bcast_S4x1x1x768x768_S4x1x25x768x768_0_1_2_3_4 (denom s)))

/-- THE FIRST RESULT as a term: the sum along axis 2 of the stack times the weights, from the zero word. -/
def convTerm (x s : FVec F S4x1x768x768 .f32) : FVec F S4x1x768x768 .f32 :=
  Host.reduceAdd (mulf (stack (framed x)) (weights s)) (constant S_ .f32 0x00000000#32)
    reducesTo_S4x1x25x768x768_S4x1x768x768_d2 h_S_

/-- THE SECOND RESULT as a term: the comparison of the first with one half, as a number. -/
def maskTerm (x s : FVec F S4x1x768x768 .f32) : FVec F S4x1x768x768 .f32 :=
  uitofp .f32 (cmpf .oge (convTerm x s)
    (broadcastInDim S4x1x768x768 ![] bcast_S_S4x1x768x768 (constant S_ .f32 0x3F000000#32)))

end Cert.ReferenceIdeal.RefTerm

end
-- ==== Proof.RefAfter.lean ====
/-
  What the reference's buffers hold after its operations, read back at the two results and the two arguments: the
  fold of the operations at a result's buffer is the composed term of the arguments' contents, by computation
  (each operation's result at its own buffer is its function's value, at any other buffer what was there).
-/
import proofs.«144998_j90108413870322_2_alg».proof.Proof.RefRun
import proofs.«144998_j90108413870322_2_alg».proof.Proof.RefTerm

noncomputable section

namespace Cert.ReferenceIdeal.RefAfter

open Cert.ReferenceIdeal Cert.ReferenceIdeal.Gen Cert.ReferenceIdeal.RefRun Cert.ReferenceIdeal.RefTerm
open Idealize.ShloMosaic Idealize.ShloMosaic.TcCoe Idealize.SL.Sem Idealize.ShloMosaic.StableHlo

variable {F : FTy → Type} [FloatOps F]

attribute [local irreducible] pad concatenate Host.reduceAdd extractStridedSlice broadcastInDim in
set_option maxRecDepth 16384 in
set_option maxHeartbeats 4000000 in
/-- The first result's buffer after the operations holds the first term. The re-indexing operations are kept folded
    meanwhile: the equation never looks inside them. -/
theorem conv_eq (V : Valuation τ sig (Elt F)) :
    after ops V (main_v68 : DevRef τ sig)
      = convTerm (V (main_arg0 : DevRef τ sig)) (V (main_arg1 : DevRef τ sig)) := by
  simp only [after_cons, after_nil]
  rfl

attribute [local irreducible] pad concatenate Host.reduceAdd extractStridedSlice broadcastInDim in
set_option maxRecDepth 16384 in
set_option maxHeartbeats 4000000 in
/-- The second result's buffer after the operations holds the second term. -/
theorem mask_eq (V : Valuation τ sig (Elt F)) :
    after ops V (main_v71 : DevRef τ sig)
      = maskTerm (V (main_arg0 : DevRef τ sig)) (V (main_arg1 : DevRef τ sig)) := by
  simp only [after_cons, after_nil]
  rfl

set_option maxRecDepth 16384 in
/-- No operation writes the first argument's buffer. -/
theorem arg0_eq (V : Valuation τ sig (Elt F)) :
    after ops V (main_arg0 : DevRef τ sig) = V (main_arg0 : DevRef τ sig) := by
  simp only [after_cons, after_nil]
  rfl

set_option maxRecDepth 16384 in
/-- No operation writes the second argument's buffer. -/
theorem arg1_eq (V : Valuation τ sig (Elt F)) :
    after ops V (main_arg1 : DevRef τ sig) = V (main_arg1 : DevRef τ sig) := by
  simp only [after_cons, after_nil]
  rfl

/-- The run, read at the results: every weakly fair execution of @main terminates with the two results at the two
    terms of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v68)
          = convTerm (m ((c.tc : Thread nD τ).loc main_arg0)) (m ((c.tc : Thread nD τ).loc main_arg1))
      ∧ r.2.mem ((c.tc : Thread nD τ).loc main_v71)
          = maskTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v68).trans (conv_eq _), (h c main_v71).trans (mask_eq _),
      (h c main_arg0).trans (arg0_eq _), (h c main_arg1).trans (arg1_eq _)⟩)
    (run_main m ρ)

end Cert.ReferenceIdeal.RefAfter

end
-- ==== Proof.RefTaps.lean ====
/-
  The reference's named sub-terms read at an index, at the ideal instance: max · 0, the zero frame, one shifted
  window, the stack of the 25 windows (tap k = 5·dy + dx reads the framed array at (r + dy, c + dx)), and the array
  of weights (tap k over the denominator of the output pixel).
-/
import proofs.«144998_j90108413870322_2_alg».proof.Proof.RefTerm
import proofs.«144998_j90108413870322_2_alg».proof.Proof.Spec
import Idealize.ShloMosaic.Lib.ValueIdx
import Idealize.ShloMosaic.Lib.IdealHost
import Idealize.ShloMosaic.Lib.Pipeline.Value
import Idealize.ShloMosaic.Lib.KernelVsHost
import Idealize.ShloMosaic.PureOps.Ideal.Laws

noncomputable section

namespace Cert.ReferenceIdeal.RefTaps

open Cert.ReferenceIdeal Cert.ReferenceIdeal.Gen Cert.ReferenceIdeal.RefTerm
open Idealize.ShloMosaic Idealize.ShloMosaic.ValueIdx

/-! ## max · 0 and the frame -/

theorem relu_apply (x : FVec Ideal S4x1x768x768 .f32) (i : S4x1x768x768.Idx) :
    relu (F := Ideal) x i = max (x i) 0 := by
  unfold relu
  rw [maximumf_apply, broadcastInDim_scalar_apply, constant_apply, Ideal.ofBits_zero_f32]

/-- Inside the frame the framed array is max x 0 two rows up and two columns left. -/
theorem framed_inside (x : FVec Ideal S4x1x768x768 .f32) (b : Fin 4) (u v : Fin 772)
    (hu : 2 ≤ u.val ∧ u.val < 770) (hv : 2 ≤ v.val ∧ v.val < 770) :
    framed (F := Ideal) x (ix4 b 0 u v)
      = max (x (ix4 b 0 ⟨u.val - 2, by omega⟩ ⟨v.val - 2, by omega⟩)) 0 := by
  unfold framed
  refine (pad_apply_of_inside _ _ _ _ _ _ _ _ (ix4 b 0 ⟨u.val - 2, by omega⟩ ⟨v.val - 2, by omega⟩) ?_).trans
    (relu_apply x _)
  intro a
  match a with
  | ⟨0, _⟩ => show b.val = 0 + b.val * (0 + 1); omega
  | ⟨1, _⟩ => show (0 : Fin 1).val = 0 + (0 : Fin 1).val * (0 + 1); omega
  | ⟨2, _⟩ => show u.val = 2 + (u.val - 2) * (0 + 1); omega
  | ⟨3, _⟩ => show v.val = 2 + (v.val - 2) * (0 + 1); omega

/-- On the frame the framed array is the integer zero's conversion: zero. -/
theorem framed_outside (x : FVec Ideal S4x1x768x768 .f32) (b : Fin 4) (u v : Fin 772)
    (h : ¬((2 ≤ u.val ∧ u.val < 770) ∧ (2 ≤ v.val ∧ v.val < 770))) :
    framed (F := Ideal) x (ix4 b 0 u v) = 0 := by
  have hz : (sitofp (F := Ideal) .f32 (constantI S_ 32 0#32)) (Shape.Idx.first h_S_) = 0 := by
    show (((0#32 : BitVec 32).toInt : ℝ) : EReal) = 0
    simp
  unfold framed
  by_cases hu : 2 ≤ u.val ∧ u.val < 770
  · have hv : ¬(2 ≤ v.val ∧ v.val < 770) := fun hv => h ⟨hu, hv⟩
    refine (pad_apply_of_not_inside _ _ _ _ _ _ _ _ (3 : Fin 4) ?_).trans hz
    show ¬(2 ≤ v.val ∧ (v.val - 2) % (0 + 1) = 0 ∧ (v.val - 2) / (0 + 1) < 768)
    omega
  · refine (pad_apply_of_not_inside _ _ _ _ _ _ _ _ (2 : Fin 4) ?_).trans hz
    show ¬(2 ≤ u.val ∧ (u.val - 2) % (0 + 1) = 0 ∧ (u.val - 2) / (0 + 1) < 768)
    omega

/-- The framed array at (u, v) is the specification's framed image. -/
theorem framed_apply (x : FVec Ideal S4x1x768x768 .f32) (b : Fin 4) (u v : Fin 772) :
    framed (F := Ideal) x (ix4 b 0 u v) = Cert.Spec.padRelu (Cert.Spec.img x b) u.val v.val := by
  unfold Cert.Spec.padRelu
  by_cases h : (2 ≤ u.val ∧ u.val < 770) ∧ (2 ≤ v.val ∧ v.val < 770)
  · rw [dif_pos h, framed_inside x b u v h.1 h.2]; rfl
  · rw [dif_neg h, framed_outside x b u v h]

/-! ## One window, and the stack -/

/-- The window at the offsets (dy, dx) reads the framed array at (r + dy, c + dx). -/
theorem window_apply (xp : FVec Ideal S4x1x772x772 .f32) (dy dx : ℕ)
    (h : S4x1x772x772.Slices ![0, 0, dy, dx] S4x1x768x768) (hdy : dy ≤ 4) (hdx : dx ≤ 4) (b : Fin 4) (r c : Fin 768) :
    window (F := Ideal) xp ![0, 0, dy, dx] h (ix5 b 0 0 r c)
      = xp (ix4 b 0 ⟨r.val + dy, by omega⟩ ⟨c.val + dx, by omega⟩) := by
  unfold window
  refine (broadcastInDim_apply _ _ _ (ix5 b 0 0 r c) (ix4 b 0 r c) ?_).trans
    (extractStridedSlice_apply _ _ _ (ix4 b 0 r c) (ix4 b 0 ⟨r.val + dy, by omega⟩ ⟨c.val + dx, by omega⟩) ?_)
  · intro a
    match a with
    | ⟨0, _⟩ => rfl
    | ⟨1, _⟩ => rfl
    | ⟨2, _⟩ => rfl
    | ⟨3, _⟩ => rfl
  · intro a
    match a with
    | ⟨0, _⟩ => show b.val = 0 + b.val; omega
    | ⟨1, _⟩ => show (0 : Fin 1).val = 0 + (0 : Fin 1).val; omega
    | ⟨2, _⟩ => show r.val + dy = dy + r.val; omega
    | ⟨3, _⟩ => show c.val + dx = dx + c.val; omega

/-- The offsets of tap k = 5·dy + dx. -/
def tapOff (k : ℕ) : Fin 4 → ℕ := ![0, 0, k / 5, k % 5]

theorem tap_slices : ∀ k : Fin 25, S4x1x772x772.Slices (tapOff k.val) S4x1x768x768 := by decide

/-- Tap k's window. -/
def win (xp : FVec Ideal S4x1x772x772 .f32) (k : Fin 25) : FVec Ideal S4x1x1x768x768 .f32 :=
  window xp (tapOff k.val) (tap_slices k)

theorem win_apply (xp : FVec Ideal S4x1x772x772 .f32) (k : Fin 25) (b : Fin 4) (r c : Fin 768) :
    win xp k (ix5 b 0 0 r c)
      = xp (ix4 b 0 ⟨r.val + k.val / 5, by omega⟩ ⟨c.val + k.val % 5, by omega⟩) :=
  window_apply xp (k.val / 5) (k.val % 5) (tap_slices k) (by omega) (by omega) b r c

/-- The first sixteen windows are taps 0 … 15. -/
theorem stackA_eq (xp : FVec Ideal S4x1x772x772 .f32) :
    stackA (F := Ideal) xp
      = concatenate S4x1x16x768x768 2
          (List.ofFn fun n : Fin 16 => (⟨S4x1x1x768x768, win xp (n.castLE (by decide))⟩ : (s : Shape) × (s.Idx → Ideal .f32)))
          concatenates_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x16x768x768_d2 := rfl

/-- The last nine windows are taps 16 … 24. -/
theorem stackB_eq (xp : FVec Ideal S4x1x772x772 .f32) :
    stackB (F := Ideal) xp
      = concatenate S4x1x9x768x768 2
          (List.ofFn fun n : Fin 9 => (⟨S4x1x1x768x768, win xp ⟨16 + n.val, by omega⟩⟩ : (s : Shape) × (s.Idx → Ideal .f32)))
          concatenates_S4x1x1x768x768_S4x1x1x768x768_S4x1x1x768x768_S4x1x1x768x768_S4x1x1x768x768_S4x1x1x768x768_S4x1x1x768x768_S4x1x1x768x768_S4x1x1x768x768_S4x1x9x768x768_d2 := rfl

/-- The stack at tap k reads the framed array at (r + k / 5, c + k % 5). -/
theorem stack_apply (xp : FVec Ideal S4x1x772x772 .f32) (k : Fin 25) (b : Fin 4) (r c : Fin 768) :
    stack (F := Ideal) xp (ix5 b 0 k r c)
      = xp (ix4 b 0 ⟨r.val + k.val / 5, by omega⟩ ⟨c.val + k.val % 5, by omega⟩) := by
  unfold stack
  by_cases hk : k.val < 16
  · refine (concatenate_pair_apply_left 2 (stackA xp) (stackB xp) _ (ix5 b 0 k r c) rfl
      (ix5 b 0 (⟨k.val, hk⟩ : Fin 16) r c) ?_).trans ?_
    · intro a
      match a with
      | ⟨0, _⟩ => rfl
      | ⟨1, _⟩ => rfl
      | ⟨2, _⟩ => rfl
      | ⟨3, _⟩ => rfl
      | ⟨4, _⟩ => rfl
    · rw [stackA_eq]
      refine (concatenate_ofFn_unit_apply (t := S4x1x16x768x768) (s₁ := S4x1x1x768x768) 2
        (fun n : Fin 16 => win xp (n.castLE (by decide)))
        concatenates_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x1x768x768_S4x1x16x768x768_d2
        rfl rfl (ix5 b 0 (⟨k.val, hk⟩ : Fin 16) r c) (⟨k.val, hk⟩ : Fin 16) rfl
        (ix5 b 0 0 r c) ?_).trans (win_apply xp k b r c)
      intro a ha
      match a, ha with
      | ⟨0, _⟩, _ => rfl
      | ⟨1, _⟩, _ => rfl
      | ⟨2, _⟩, ha => exact absurd rfl ha
      | ⟨3, _⟩, _ => rfl
      | ⟨4, _⟩, _ => rfl
  · have hk9 : k.val - 16 < 9 := by omega
    refine (concatenate_pair_apply_right 2 (stackA xp) (stackB xp) _ (ix5 b 0 k r c) rfl rfl
      (ix5 b 0 (⟨k.val - 16, hk9⟩ : Fin 9) r c) ?_ ?_).trans ?_
    · intro a ha
      match a, ha with
      | ⟨0, _⟩, _ => rfl
      | ⟨1, _⟩, _ => rfl
      | ⟨2, _⟩, ha => exact absurd rfl ha
      | ⟨3, _⟩, _ => rfl
      | ⟨4, _⟩, _ => rfl
    · show k.val - 16 + 16 = k.val
      omega
    · rw [stackB_eq]
      have hk' : (⟨16 + (k.val - 16), by omega⟩ : Fin 25) = k := Fin.ext (by show 16 + (k.val - 16) = k.val; omega)
      refine (concatenate_ofFn_unit_apply (t := S4x1x9x768x768) (s₁ := S4x1x1x768x768) 2
        (fun n : Fin 9 => win xp (⟨16 + n.val, by omega⟩ : Fin 25))
        concatenates_S4x1x1x768x768_S4x1x1x768x768_S4x1x1x768x768_S4x1x1x768x768_S4x1x1x768x768_S4x1x1x768x768_S4x1x1x768x768_S4x1x1x768x768_S4x1x1x768x768_S4x1x9x768x768_d2
        rfl rfl (ix5 b 0 (⟨k.val - 16, hk9⟩ : Fin 9) r c) (⟨k.val - 16, hk9⟩ : Fin 9) rfl
        (ix5 b 0 0 r c) ?_).trans ?_
      · intro a ha
        match a, ha with
        | ⟨0, _⟩, _ => rfl
        | ⟨1, _⟩, _ => rfl
        | ⟨2, _⟩, ha => exact absurd rfl ha
        | ⟨3, _⟩, _ => rfl
        | ⟨4, _⟩, _ => rfl
      · show win xp (⟨16 + (k.val - 16), _⟩ : Fin 25) (ix5 b 0 0 r c) = _
        rw [hk']
        exact win_apply xp k b r c

/-! ## The weights -/

/-- The table at tap k is the word of the squared distance ρ²ₖ. -/
theorem table_apply (k : Fin 25) : table (F := Ideal) (ix1 k) = Ideal.ofBits .f32 (Cert.Spec.r2 k) := by
  have hk : S25.rowMajor (ix1 k) = k := Fin.ext (Shape.rowMajor_val_one _)
  show Ideal.ofBits .f32 (lit0 (S25.rowMajor (ix1 k))) = _
  rw [hk]
  rfl

/-- The denominator at a pixel is 2 s² + ε at that pixel's scale. -/
theorem denom_apply (s : FVec Ideal S4x1x768x768 .f32) (b : Fin 4) (r c : Fin 768) :
    denom (F := Ideal) s (ix5 b 0 0 r c) = Cert.Spec.den (s (ix4 b 0 r c)) := by
  have e : broadcastInDim S4x1x1x768x768 ![0, 1, 3, 4] bcast_S4x1x768x768_S4x1x1x768x768_0_1_3_4 (mulf s s) (ix5 b 0 0 r c)
      = s (ix4 b 0 r c) * s (ix4 b 0 r c) :=
    (broadcastInDim_apply _ _ _ (ix5 b 0 0 r c) (ix4 b 0 r c) (by
      intro a
      match a with
      | ⟨0, _⟩ => rfl
      | ⟨1, _⟩ => rfl
      | ⟨2, _⟩ => rfl
      | ⟨3, _⟩ => rfl)).trans (mulf_apply s s _)
  unfold denom Cert.Spec.den
  rw [addf_apply, mulf_apply, e, broadcastInDim_scalar_apply, broadcastInDim_scalar_apply, constant_apply, constant_apply]

/-- The weight of tap k at a pixel is exp (−ρ²ₖ / (2 s² + ε)) at that pixel's scale. -/
theorem weights_apply (s : FVec Ideal S4x1x768x768 .f32) (k : Fin 25) (b : Fin 4) (r c : Fin 768) :
    weights (F := Ideal) s (ix5 b 0 k r c) = Cert.Spec.weight k (Cert.Spec.den (s (ix4 b 0 r c))) := by
  have eT : broadcastInDim S4x1x25x768x768 ![0, 1, 2, 3, 4] bcast_S1x1x25x1x1_S4x1x25x768x768_0_1_2_3_4
        (Host.negf (broadcastInDim S1x1x25x1x1 ![2] bcast_S25_S1x1x25x1x1_2 (table (F := Ideal)))) (ix5 b 0 k r c)
      = -(Ideal.ofBits .f32 (Cert.Spec.r2 k)) := by
    refine (broadcastInDim_apply _ _ _ (ix5 b 0 k r c) (ix5 (0 : Fin 1) (0 : Fin 1) k (0 : Fin 1) (0 : Fin 1)) ?_).trans ?_
    · intro a
      match a with
      | ⟨0, _⟩ => rfl
      | ⟨1, _⟩ => rfl
      | ⟨2, _⟩ => rfl
      | ⟨3, _⟩ => rfl
      | ⟨4, _⟩ => rfl
    · show -(broadcastInDim S1x1x25x1x1 ![2] bcast_S25_S1x1x25x1x1_2 (table (F := Ideal))
          (ix5 (0 : Fin 1) (0 : Fin 1) k (0 : Fin 1) (0 : Fin 1))) = _
      rw [broadcastInDim_apply _ _ _ (ix5 (0 : Fin 1) (0 : Fin 1) k (0 : Fin 1) (0 : Fin 1)) (ix1 k) (by
        intro a
        match a with
        | ⟨0, _⟩ => rfl), table_apply]
  have eD : broadcastInDim S4x1x25x768x768 ![0, 1, 2, 3, 4] bcast_S4x1x1x768x768_S4x1x25x768x768_0_1_2_3_4
        (denom (F := Ideal) s) (ix5 b 0 k r c) = Cert.Spec.den (s (ix4 b 0 r c)) :=
    (broadcastInDim_apply _ _ _ (ix5 b 0 k r c) (ix5 b 0 0 r c) (by
      intro a
      match a with
      | ⟨0, _⟩ => rfl
      | ⟨1, _⟩ => rfl
      | ⟨2, _⟩ => rfl
      | ⟨3, _⟩ => rfl
      | ⟨4, _⟩ => rfl)).trans (denom_apply s b r c)
  unfold weights Cert.Spec.weight
  show Ideal.exp (Ideal.div
      (broadcastInDim S4x1x25x768x768 ![0, 1, 2, 3, 4] bcast_S1x1x25x1x1_S4x1x25x768x768_0_1_2_3_4
        (Host.negf (broadcastInDim S1x1x25x1x1 ![2] bcast_S25_S1x1x25x1x1_2 (table (F := Ideal)))) (ix5 b 0 k r c))
      (broadcastInDim S4x1x25x768x768 ![0, 1, 2, 3, 4] bcast_S4x1x1x768x768_S4x1x25x768x768_0_1_2_3_4
        (denom (F := Ideal) s) (ix5 b 0 k r c))) = _
  rw [eT, eD]

end Cert.ReferenceIdeal.RefTaps

end
-- ==== Proof.RefValue.lean ====
/-
  The reference computes the specification: its first result is, at every pixel, the sum over the 25 taps of the
  framed max x 0 at the shifted pixel times exp (−ρ²ₖ / (2 s² + ε)); its second is where the first is at least one
  half.  Index by index: the sum along the stacked axis is a sum over the taps, and each factor is read at its index.
-/
import proofs.«144998_j90108413870322_2_alg».proof.Proof.RefAfter
import proofs.«144998_j90108413870322_2_alg».proof.Proof.RefTaps

noncomputable section

namespace Cert.ReferenceIdeal.RefValue

open Cert.ReferenceIdeal Cert.ReferenceIdeal.Gen Cert.ReferenceIdeal.RefTerm Cert.ReferenceIdeal.RefTaps
open Idealize.ShloMosaic Idealize.ShloMosaic.TcCoe Idealize.SL.Sem Idealize.ShloMosaic.ValueIdx
open scoped BigOperators

/-- The result shape is the stack's with the tap axis removed. -/
theorem reduces_taps : S4x1x25x768x768.Reduces [2] S4x1x768x768 := by decide

/-- The pixel (b, 0, r, c) with tap k inserted is (b, 0, k, r, c). -/
theorem lift_ix4 (b : Fin 4) (r c : Fin 768) (k : Fin 25) :
    reduces_taps.lift (ix4 b 0 r c) k = ix5 b 0 k r c := by
  funext a
  match a with
  | ⟨0, _⟩ => rfl
  | ⟨1, _⟩ => rfl
  | ⟨2, _⟩ => rfl
  | ⟨3, _⟩ => rfl
  | ⟨4, _⟩ => rfl

/-- THE FIRST RESULT is the specification's. -/
theorem conv_eq_spec (x s : FVec Ideal S4x1x768x768 .f32) : convTerm (F := Ideal) x s = Cert.Spec.conv x s := by
  funext j
  obtain ⟨b, r, c, rfl⟩ := Cert.Spec.exists_ix4 j
  rw [Cert.Spec.conv_ix4]
  unfold convTerm Cert.Spec.convAt
  rw [hostReduceAdd_apply, Ideal.hostReduceAdd_single _ reduces_taps, constant_apply, Ideal.ofBits_zero_f32, zero_add]
  refine Finset.sum_congr rfl fun (k : Fin 25) _ => ?_
  rw [lift_ix4, mulf_apply, stack_apply, framed_apply, weights_apply]

/-- THE SECOND RESULT is the specification's. -/
theorem mask_eq_spec (x s : FVec Ideal S4x1x768x768 .f32) : maskTerm (F := Ideal) x s = Cert.Spec.mask x s := by
  funext j
  unfold maskTerm Cert.Spec.mask Cert.Spec.maskAt
  rw [conv_eq_spec]
  show (((Ideal.cmp .oge (Cert.Spec.conv x s j)
      (broadcastInDim S4x1x768x768 ![] bcast_S_S4x1x768x768 (constant (F := Ideal) S_ .f32 0x3F000000#32) j)).toNat : ℝ) : EReal) = _
  rw [broadcastInDim_scalar_apply, constant_apply]

/-- Every weakly fair execution of the reference terminates with its two results at the specification of the
    arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v68) = Cert.Spec.conv (m ((c.tc : Thread nD τ).loc main_arg0)) (m ((c.tc : Thread nD τ).loc main_arg1))
      ∧ r.2.mem ((c.tc : Thread nD τ).loc main_v71) = Cert.Spec.mask (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono
    (fun _ h c => ⟨(h c).1.trans (conv_eq_spec _ _), (h c).2.1.trans (mask_eq_spec _ _), (h c).2.2.1, (h c).2.2.2⟩)
    (RefAfter.run (F := Ideal) m ρ)

end Cert.ReferenceIdeal.RefValue

end
-- ==== Proof.lean ====
/-
  The kernel computes, image by image, a 5 × 5 windowed sum of max x 0 framed by zeros, each tap weighted by
  exp (−ρ² / (2 s² + ε)) with s the scale at the output pixel, and the indicator of that sum being at least one half;
  the reference computes the same two arrays with jnp's pad, 25 shifted slices stacked on an axis, and a sum over
  that axis.  Both idealized programs end with their result arrays at ONE pair of functions of the argument arrays
  (`Cert.Spec.conv`, `Cert.Spec.mask`): the kernel by reading its scratch buffer as the framed image and its
  accumulation as the sum of the 25 products (Proof/KernelScratch … Proof/KernelValue), the reference by reading its
  host operations at an index (Proof/RefRun … Proof/RefValue).  The two differ only in the grouping of the product
  2 · s · s, in the order of a finite sum, and in spelling −ρ² as the word of a negative number or as the negation of
  the word of ρ²: laws of the extended reals that hold at the infinities too, so the precondition is never opened.
  The three frames are the programs' runs with the results forgotten; the idealization rewrote nothing.
-/
import proofs.«144998_j90108413870322_2_alg».proof.Defs
import proofs.«144998_j90108413870322_2_alg».proof.Proof.Gen.Kernel
import proofs.«144998_j90108413870322_2_alg».proof.Proof.Gen.Kernel.Skeleton
import proofs.«144998_j90108413870322_2_alg».proof.Proof.Gen.Kernel.Launch
import proofs.«144998_j90108413870322_2_alg».proof.Proof.Gen.Kernel.Points
import proofs.«144998_j90108413870322_2_alg».proof.Proof.Gen.Kernel.Frame
import proofs.«144998_j90108413870322_2_alg».proof.Proof.Gen.KernelIdeal
import proofs.«144998_j90108413870322_2_alg».proof.Proof.Gen.KernelIdeal.Skeleton
import proofs.«144998_j90108413870322_2_alg».proof.Proof.Gen.KernelIdeal.Launch
import proofs.«144998_j90108413870322_2_alg».proof.Proof.Gen.KernelIdeal.Points
import proofs.«144998_j90108413870322_2_alg».proof.Proof.Gen.KernelIdeal.Frame
import proofs.«144998_j90108413870322_2_alg».proof.Proof.Gen.KernelIdeal.Value
import proofs.«144998_j90108413870322_2_alg».proof.Proof.Gen.ReferenceIdeal
import proofs.«144998_j90108413870322_2_alg».proof.Proof.Gen.Pre_finite_inputs
import proofs.«144998_j90108413870322_2_alg».proof.Proof.KernelValue
import proofs.«144998_j90108413870322_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : @Cert.frame_Kernel Cert.Kernel.Gen.facts Cert.Pre_finite_inputs.Gen.facts :=
  fun m ρ _ => Cert.Kernel.Gen.frame m ρ

/-- So does the idealized kernel, -/
theorem frame_ki : @Cert.frame_KernelIdeal Cert.KernelIdeal.Gen.facts Cert.Pre_finite_inputs.Gen.facts :=
  fun m ρ _ => Cert.KernelIdeal.Gen.frame m ρ

/-- and the idealized reference: its run with the two results forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.RefValue.run m ρ)

/-- From memories that agree on the arguments both programs end with the windowed sum and its threshold, the
    specification's functions of those arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Spec.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Spec.mask (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, ?_, (h c).2.2.1, (h c).2.2.2⟩)
    (Cert.ReferenceIdeal.RefValue.run m' ρ')
  · rw [(h c).1, (hagree c).1, (hagree c).2]
  · rw [(h c).2.1, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
